-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S4 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg12 : FVec F S128 .f32) (main_arg13 : FVec F S96x128 .f32) (main_arg14 : FVec F S128x4 .f32) (main_arg15 : FVec F S4 .f32) (main_v48 : IVec S_ 1) (main_v49 : FVec F S96x128 .f32) (main_v50 : FVec F S96x128 .f32) : IVec S_ 1 :=
  let main_v51 : IVec S96x128 1 := cmpf .olt main_v49 main_v50
  let main_c_19 : IVec S_ 1 := constantI S_ 1 1#1
  let main_v52 : IVec S_ 1 := (fun x v => Host.reduce IntOp.andi x v reducesTo_S96x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S96x128 .f32 := Host.absf main_arg13
  let main_cst_22 : FVec F S_ .f32 := constant S_ .f32 0x7F800000#32
  let main_v60 : FVec F S96x128 .f32 := broadcastInDim S96x128 ![] bcast_S_S96x128 main_cst_22
  let main_v61 : IVec S96x128 1 := cmpf .olt main_v59 main_v60
  let main_c_23 : IVec S_ 1 := constantI S_ 1 1#1
  let main_v62 : IVec S_ 1 := (fun x v => Host.reduce IntOp.andi x v reducesTo_S96x128_S_d0_1 h_S_) main_v61 main_c_23
  let main_v63 : IVec S_ 1 := andi main_v58 main_v62
  let main_v64 : FVec F S128x4 .f32 := Host.absf main_arg14
  let main_cst_24 : FVec F S_ .f32 := constant S_ .f32 0x7F800000#32
  let main_v65 : FVec F S128x4 .f32 := broadcastInDim S128x4 ![] bcast_S_S128x4 main_cst_24
  let main_v66 : IVec S128x4 1 := cmpf .olt main_v64 main_v65
  let main_c_25 : IVec S_ 1 := constantI S_ 1 1#1
  let main_v67 : IVec S_ 1 := (fun x v => Host.reduce IntOp.andi x v reducesTo_S128x4_S_d0_1 h_S_) main_v66 main_c_25
  fn_part4 (F := F) main_arg15 main_v63 main_v67

def fn_part2 {F : FTy → Type} [FloatOps F] (main_arg8 : FVec F S64x96 .f32) (main_arg9 : FVec F S96 .f32) (main_arg10 : FVec F S64x96 .f32) (main_arg11 : FVec F S96x128 .f32) (main_arg12 : FVec F S128 .f32) (main_arg13 : FVec F S96x128 .f32) (main_arg14 : FVec F S128x4 .f32) (main_arg15 : FVec F S4 .f32) (main_v33 : IVec S_ 1) : IVec S_ 1 :=
  let main_v34 : FVec F S64x96 .f32 := Host.absf main_arg8
  let main_cst_12 : FVec F S_ .f32 := constant S_ .f32 0x7F800000#32
  let main_v35 : FVec F S64x96 .f32 := broadcastInDim S64x96 ![] bcast_S_S64x96 main_cst_12
  let main_v36 : IVec S64x96 1 := cmpf .olt main_v34 main_v35
  let main_c_13 : IVec S_ 1 := constantI S_ 1 1#1
  let main_v37 : IVec S_ 1 := (fun x v => Host.reduce IntOp.andi x v reducesTo_S64x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S64x96 .f32 := Host.absf main_arg10
  let main_cst_16 : FVec F S_ .f32 := constant S_ .f32 0x7F800000#32
  let main_v45 : FVec F S64x96 .f32 := broadcastInDim S64x96 ![] bcast_S_S64x96 main_cst_16
  let main_v46 : IVec S64x96 1 := cmpf .olt main_v44 main_v45
  let main_c_17 : IVec S_ 1 := constantI S_ 1 1#1
  let main_v47 : IVec S_ 1 := (fun x v => Host.reduce IntOp.andi x v reducesTo_S64x96_S_d0_1 h_S_) main_v46 main_c_17
  let main_v48 : IVec S_ 1 := andi main_v43 main_v47
  let main_v49 : FVec F S96x128 .f32 := Host.absf main_arg11
  let main_cst_18 : FVec F S_ .f32 := constant S_ .f32 0x7F800000#32
  let main_v50 : FVec F S96x128 .f32 := broadcastInDim S96x128 ![] bcast_S_S96x128 main_cst_18
  fn_part3 (F := F) main_arg12 main_arg13 main_arg14 main_arg15 main_v48 main_v49 main_v50

def fn_part1 {F : FTy → Type} [FloatOps F] (main_arg5 : FVec F S32x64 .f32) (main_arg6 : FVec F S64 .f32) (main_arg7 : FVec F S32x64 .f32) (main_arg8 : FVec F S64x96 .f32) (main_arg9 : FVec F S96 .f32) (main_arg10 : FVec F S64x96 .f32) (main_arg11 : FVec F S96x128 .f32) (main_arg12 : FVec F S128 .f32) (main_arg13 : FVec F S96x128 .f32) (main_arg14 : FVec F S128x4 .f32) (main_arg15 : FVec F S4 .f32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x3 .f32) (main_arg1 : IVec S2x1600000 32) (main_arg2 : FVec F S3x32 .f32) (main_arg3 : FVec F S32 .f32) (main_arg4 : FVec F S3x32 .f32) (main_arg5 : FVec F S32x64 .f32) (main_arg6 : FVec F S64 .f32) (main_arg7 : FVec F S32x64 .f32) (main_arg8 : FVec F S64x96 .f32) (main_arg9 : FVec F S96 .f32) (main_arg10 : FVec F S64x96 .f32) (main_arg11 : FVec F S96x128 .f32) (main_arg12 : FVec F S128 .f32) (main_arg13 : FVec F S96x128 .f32) (main_arg14 : FVec F S128x4 .f32) (main_arg15 : FVec F S4 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg2
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32 .f32 := Host.absf main_arg4
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x3 : Shape := ⟨2, ![1600000, 3]⟩
abbrev S1x32 : Shape := ⟨2, ![1, 32]⟩
abbrev S100000x32 : Shape := ⟨2, ![100000, 32]⟩
abbrev S5000x3 : Shape := ⟨2, ![5000, 3]⟩
abbrev S5000x32 : Shape := ⟨2, ![5000, 32]⟩
abbrev S1600000x32 : Shape := ⟨2, ![1600000, 32]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S1x96 : Shape := ⟨2, ![1, 96]⟩
abbrev S100000x96 : Shape := ⟨2, ![100000, 96]⟩
abbrev S5000x96 : Shape := ⟨2, ![5000, 96]⟩
abbrev S1600000x96 : Shape := ⟨2, ![1600000, 96]⟩
abbrev S1x128 : Shape := ⟨2, ![1, 128]⟩
abbrev S1x4 : Shape := ⟨2, ![1, 4]⟩
abbrev S100000x4 : Shape := ⟨2, ![100000, 4]⟩
abbrev S5000x4 : Shape := ⟨2, ![5000, 4]⟩
abbrev S5000x128 : Shape := ⟨2, ![5000, 128]⟩

abbrev nBuf : Space → Nat
  | .hbm => 111
  | .vmem => 38
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x32, .f32⟩
  | .hbm, ⟨3, _⟩ => ⟨S32, .f32⟩
  | .hbm, ⟨4, _⟩ => ⟨S3x32, .f32⟩
  | .hbm, ⟨5, _⟩ => ⟨S32x64, .f32⟩
  | .hbm, ⟨6, _⟩ => ⟨S64, .f32⟩
  | .hbm, ⟨7, _⟩ => ⟨S32x64, .f32⟩
  | .hbm, ⟨8, _⟩ => ⟨S64x96, .f32⟩
  | .hbm, ⟨9, _⟩ => ⟨S96, .f32⟩
  | .hbm, ⟨10, _⟩ => ⟨S64x96, .f32⟩
  | .hbm, ⟨11, _⟩ => ⟨S96x128, .f32⟩
  | .hbm, ⟨12, _⟩ => ⟨S128, .f32⟩
  | .hbm, ⟨13, _⟩ => ⟨S96x128, .f32⟩
  | .hbm, ⟨14, _⟩ => ⟨S128x4, .f32⟩
  | .hbm, ⟨15, _⟩ => ⟨S4, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x3, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x3, .bf16⟩
  | .hbm, ⟨43, _⟩ => ⟨S1600000x3, .f32⟩
  | .hbm, ⟨44, _⟩ => ⟨S_, .f32⟩
  | .hbm, ⟨45, _⟩ => ⟨S100000x3, .f32⟩
  | .hbm, ⟨46, _⟩ => ⟨S1600000x1, .i32⟩
  | .hbm, ⟨47, _⟩ => ⟨S100000x3, .f32⟩
  | .hbm, ⟨48, _⟩ => ⟨S100000x3, .f32⟩
  | .hbm, ⟨49, _⟩ => ⟨S100000x3, .f32⟩
  | .hbm, ⟨50, _⟩ => ⟨S100000x3, .bf16⟩
  | .hbm, ⟨51, _⟩ => ⟨S1x32, .f32⟩
  | .hbm, ⟨52, _⟩ => ⟨S100000x32, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .bf16⟩
  | .hbm, ⟨62, _⟩ => ⟨S1600000x32, .f32⟩
  | .hbm, ⟨63, _⟩ => ⟨S_, .f32⟩
  | .hbm, ⟨64, _⟩ => ⟨S100000x32, .f32⟩
  | .hbm, ⟨65, _⟩ => ⟨S1600000x1, .i32⟩
  | .hbm, ⟨66, _⟩ => ⟨S100000x32, .f32⟩
  | .hbm, ⟨67, _⟩ => ⟨S100000x32, .f32⟩
  | .hbm, ⟨68, _⟩ => ⟨S100000x32, .f32⟩
  | .hbm, ⟨69, _⟩ => ⟨S100000x32, .bf16⟩
  | .hbm, ⟨70, _⟩ => ⟨S1x64, .f32⟩
  | .hbm, ⟨71, _⟩ => ⟨S100000x64, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .bf16⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .bf16⟩
  | .hbm, ⟨89, _⟩ => ⟨S1x96, .f32⟩
  | .hbm, ⟨90, _⟩ => ⟨S100000x96, .bf16⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x96, .bf16⟩
  | .hbm, ⟨100, _⟩ => ⟨S1600000x96, .f32⟩
  | .hbm, ⟨101, _⟩ => ⟨S_, .f32⟩
  | .hbm, ⟨102, _⟩ => ⟨S100000x96, .f32⟩
  | .hbm, ⟨103, _⟩ => ⟨S1600000x1, .i32⟩
  | .hbm, ⟨104, _⟩ => ⟨S100000x96, .f32⟩
  | .hbm, ⟨105, _⟩ => ⟨S100000x96, .f32⟩
  | .hbm, ⟨106, _⟩ => ⟨S100000x96, .f32⟩
  | .hbm, ⟨107, _⟩ => ⟨S100000x96, .bf16⟩
  | .hbm, ⟨108, _⟩ => ⟨S1x128, .f32⟩
  | .hbm, ⟨109, _⟩ => ⟨S1x4, .f32⟩
  | .hbm, ⟨110, _⟩ => ⟨S100000x4, .f32⟩
  | .local _ .vmem, ⟨0, _⟩ => ⟨S5000x3, .bf16⟩
  | .local _ .vmem, ⟨1, _⟩ => ⟨S5000x3, .bf16⟩
  | .local _ .vmem, ⟨2, _⟩ => ⟨S5000x3, .bf16⟩
  | .local _ .vmem, ⟨3, _⟩ => ⟨S5000x3, .bf16⟩
  | .local _ .vmem, ⟨4, _⟩ => ⟨S3x32, .f32⟩
  | .local _ .vmem, ⟨5, _⟩ => ⟨S1x32, .f32⟩
  | .local _ .vmem, ⟨6, _⟩ => ⟨S3x32, .f32⟩
  | .local _ .vmem, ⟨7, _⟩ => ⟨S5000x32, .bf16⟩
  | .local _ .vmem, ⟨8, _⟩ => ⟨S5000x32, .bf16⟩
  | .local _ .vmem, ⟨9, _⟩ => ⟨S5000x32, .bf16⟩
  | .local _ .vmem, ⟨10, _⟩ => ⟨S5000x32, .bf16⟩
  | .local _ .vmem, ⟨11, _⟩ => ⟨S5000x32, .bf16⟩
  | .local _ .vmem, ⟨12, _⟩ => ⟨S5000x32, .bf16⟩
  | .local _ .vmem, ⟨13, _⟩ => ⟨S32x64, .f32⟩
  | .local _ .vmem, ⟨14, _⟩ => ⟨S1x64, .f32⟩
  | .local _ .vmem, ⟨15, _⟩ => ⟨S32x64, .f32⟩
  | .local _ .vmem, ⟨16, _⟩ => ⟨S5000x64, .bf16⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S5000x64, .bf16⟩
  | .local _ .vmem, ⟨22, _⟩ => ⟨S64x96, .f32⟩
  | .local _ .vmem, ⟨23, _⟩ => ⟨S1x96, .f32⟩
  | .local _ .vmem, ⟨24, _⟩ => ⟨S64x96, .f32⟩
  | .local _ .vmem, ⟨25, _⟩ => ⟨S5000x96, .bf16⟩
  | .local _ .vmem, ⟨26, _⟩ => ⟨S5000x96, .bf16⟩
  | .local _ .vmem, ⟨27, _⟩ => ⟨S5000x96, .bf16⟩
  | .local _ .vmem, ⟨28, _⟩ => ⟨S5000x96, .bf16⟩
  | .local _ .vmem, ⟨29, _⟩ => ⟨S5000x96, .bf16⟩
  | .local _ .vmem, ⟨30, _⟩ => ⟨S5000x96, .bf16⟩
  | .local _ .vmem, ⟨31, _⟩ => ⟨S96x128, .f32⟩
  | .local _ .vmem, ⟨32, _⟩ => ⟨S1x128, .f32⟩
  | .local _ .vmem, ⟨33, _⟩ => ⟨S96x128, .f32⟩
  | .local _ .vmem, ⟨34, _⟩ => ⟨S128x4, .f32⟩
  | .local _ .vmem, ⟨35, _⟩ => ⟨S1x4, .f32⟩
  | .local _ .vmem, ⟨36, _⟩ => ⟨S5000x4, .f32⟩
  | .local _ .vmem, ⟨37, _⟩ => ⟨S5000x4, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  shapeCasts_S32_S1x32 : S32.ShapeCasts S1x32
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S96_S1x96 : S96.ShapeCasts S1x96
  shapeCasts_S5000x64_S5000x64 : S5000x64.ShapeCasts S5000x64
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  packedbf16_S5000x96_S5000x96_0_0 : (Rect.unit (s := S5000x96) ![0, 0] S5000x96.size inb_S5000x96_S5000x96_0_0).PackedRows (EltTy.packing .bf16)
  bcast_S_S100000x96 : S_.BroadcastsInDim S100000x96 (![] : Fin 0 → Fin S100000x96.rank)
  bcast_S100000x1_S100000x96_0_1 : S100000x1.BroadcastsInDim S100000x96 (![0, 1] : Fin 2 → Fin S100000x96.rank)
  shapeCasts_S128_S1x128 : S128.ShapeCasts S1x128
  shapeCasts_S4_S1x4 : S4.ShapeCasts S1x4
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  dot_S5000x3_S3x32_S5000x32_1_0_0_1_n_n_wf : DotDims.WF S5000x3 S3x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x96_S5000x96_1_0_0_1_n_n_wf : DotDims.WF S5000x64 S64x96 S5000x96 [1] [0] [0] [1] [] []
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S5000x96_S96x128_S5000x128_1_0_0_1_n_n_wf : DotDims.WF S5000x96 S96x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .bf16 = 32 ∨ (Rect.block (s := S100000x3) S5000x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .bf16 = 32 ∨ (Rect.block (s := S100000x3) S5000x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x32.size a ≤ S3x32.size a
  hwx0_4 : ∀ i : grid0.Coords, EltTy.bits .f32 = 32 ∨ (Rect.block (s := S3x32) S3x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .bf16 = 32 ∨ (Rect.block (s := S100000x32) S5000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .bf16 = 32 ∨ (Rect.block (s := S100000x32) S5000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .bf16 = 32 ∨ (Rect.block (s := S100000x32) S5000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .bf16 = 32 ∨ (Rect.block (s := S100000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x96.size a ≤ S64x96.size a
  hwx2_2 : ∀ i : grid2.Coords, EltTy.bits .f32 = 32 ∨ (Rect.block (s := S64x96) S64x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x96.size a ≤ S64x96.size a
  hwx2_4 : ∀ i : grid2.Coords, EltTy.bits .f32 = 32 ∨ (Rect.block (s := S64x96) S64x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S100000x96.size a
  hwx2_5 : ∀ i : grid2.Coords, EltTy.bits .bf16 = 32 ∨ (Rect.block (s := S100000x96) S5000x96.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S100000x96.size a
  hwx3_0 : ∀ i : grid3.Coords, EltTy.bits .bf16 = 32 ∨ (Rect.block (s := S100000x96) S5000x96.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S100000x96.size a
  hwx3_1 : ∀ i : grid3.Coords, EltTy.bits .bf16 = 32 ∨ (Rect.block (s := S100000x96) S5000x96.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x128.size a ≤ S96x128.size a
  hwx3_2 : ∀ i : grid3.Coords, EltTy.bits .f32 = 32 ∨ (Rect.block (s := S96x128) S96x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x128.size a ≤ S96x128.size a
  hwx3_4 : ∀ i : grid3.Coords, EltTy.bits .f32 = 32 ∨ (Rect.block (s := S96x128) S96x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x4.size a ≤ S128x4.size a
  hwx3_5 : ∀ i : grid3.Coords, EltTy.bits .f32 = 32 ∨ (Rect.block (s := S128x4) S128x4.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x4.size a ≤ S1x4.size a
  hwx3_6 : ∀ i : grid3.Coords, EltTy.bits .f32 = 32 ∨ (Rect.block (s := S1x4) S1x4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x4.size a ≤ S100000x4.size a
  hwx3_7 : ∀ i : grid3.Coords, EltTy.bits .f32 = 32 ∨ (Rect.block (s := S100000x4) S5000x4.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_v27) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S96x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S96x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S1x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S5000x4.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x96 : Shape := ⟨2, ![64, 96]⟩
abbrev S96 : Shape := ⟨1, ![96]⟩
abbrev S96x128 : Shape := ⟨2, ![96, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x96 : Shape := ⟨2, ![100000, 96]⟩
abbrev S1x96 : Shape := ⟨2, ![1, 96]⟩
abbrev S1600000x96 : Shape := ⟨2, ![1600000, 96]⟩
abbrev S100000x128 : Shape := ⟨2, ![100000, 128]⟩
abbrev S1x128 : Shape := ⟨2, ![1, 128]⟩
abbrev S100000x4 : Shape := ⟨2, ![100000, 4]⟩
abbrev S1x4 : Shape := ⟨2, ![1, 4]⟩

abbrev nBuf : Space → Nat
  | .hbm => 168
  | .vmem => 0
  | .smem => 0
  | _ => 0

abbrev hbmTy0_0 (i : Nat) : BufTy := match i % 128 with
  | 0 => ⟨S100000x3, .f32⟩
  | 1 => ⟨S2x1600000, .i32⟩
  | 2 => ⟨S3x32, .f32⟩
  | 3 => ⟨S32, .f32⟩
  | 4 => ⟨S3x32, .f32⟩
  | 5 => ⟨S32x64, .f32⟩
  | 6 => ⟨S64, .f32⟩
  | 7 => ⟨S32x64, .f32⟩
  | 8 => ⟨S64x96, .f32⟩
  | 9 => ⟨S96, .f32⟩
  | 10 => ⟨S64x96, .f32⟩
  | 11 => ⟨S96x128, .f32⟩
  | 12 => ⟨S128, .f32⟩
  | 13 => ⟨S96x128, .f32⟩
  | 14 => ⟨S128x4, .f32⟩
  | 15 => ⟨S4, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x3, .f32⟩
  | 29 => ⟨S_, .f32⟩
  | 30 => ⟨S100000x3, .f32⟩
  | 31 => ⟨S1600000x1, .i32⟩
  | 32 => ⟨S100000x3, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x3, .f32⟩
  | 44 => ⟨S100000x3, .f32⟩
  | 45 => ⟨S100000x32, .f32⟩
  | 46 => ⟨S1x32, .f32⟩
  | 47 => ⟨S100000x32, .f32⟩
  | 48 => ⟨S100000x32, .f32⟩
  | 49 => ⟨S100000x32, .f32⟩
  | 50 => ⟨S100000x32, .f32⟩
  | 51 => ⟨S_, .f32⟩
  | 52 => ⟨S100000x32, .f32⟩
  | 53 => ⟨S100000x32, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x32, .f32⟩
  | 78 => ⟨S100000x32, .f32⟩
  | 79 => ⟨S100000x64, .f32⟩
  | 80 => ⟨S1x64, .f32⟩
  | 81 => ⟨S100000x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S_, .f32⟩
  | 102 => ⟨S1600000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x64, .f32⟩
  | 112 => ⟨S100000x64, .f32⟩
  | 113 => ⟨S100000x96, .f32⟩
  | 114 => ⟨S1x96, .f32⟩
  | 115 => ⟨S100000x96, .f32⟩
  | 116 => ⟨S100000x96, .f32⟩
  | 117 => ⟨S100000x96, .f32⟩
  | 118 => ⟨S100000x96, .f32⟩
  | 119 => ⟨S_, .f32⟩
  | 120 => ⟨S100000x96, .f32⟩
  | 121 => ⟨S100000x96, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x3, .f32⟩

abbrev hbmTy0_1 (i : Nat) : BufTy := match i % 128 with
  | 0 => ⟨S1600000, .i32⟩
  | 1 => ⟨S1600000x1, .i32⟩
  | 2 => ⟨S1600000x96, .f32⟩
  | 3 => ⟨S_, .f32⟩
  | 4 => ⟨S100000x96, .f32⟩
  | 5 => ⟨S1600000x1, .i32⟩
  | 6 => ⟨S100000x96, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x96, .f32⟩
  | 18 => ⟨S100000x96, .f32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x4, .f32⟩
  | 29 => ⟨S1x4, .f32⟩
  | 30 => ⟨S100000x4, .f32⟩
  | 31 => ⟨S100000x4, .f32⟩
  | 32 => ⟨S100000x4, .f32⟩
  | 33 => ⟨S100000x4, .f32⟩
  | 34 => ⟨S_, .f32⟩
  | 35 => ⟨S100000x4, .f32⟩
  | 36 => ⟨S100000x4, .f32⟩
  | 37 => ⟨S_, .f32⟩
  | 38 => ⟨S100000x4, .f32⟩
  | 39 => ⟨S100000x4, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call2_cst : Ref sig .tc := ⟨.hbm, 119, rfl⟩
abbrev main_call2_v0 : Ref sig .tc := ⟨.hbm, 120, rfl⟩
abbrev main_v81 : Ref sig .tc := ⟨.hbm, 121, rfl⟩
abbrev main_c_16 : Ref sig .tc := ⟨.hbm, 122, rfl⟩
abbrev main_v82 : Ref sig .tc := ⟨.hbm, 123, rfl⟩
abbrev main_v83 : Ref sig .tc := ⟨.hbm, 124, rfl⟩
abbrev main_c_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call3_cst : Ref sig .tc := ⟨.hbm, 153, rfl⟩
abbrev main_call3_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_22 : Ref sig .tc := ⟨.hbm, 162, rfl⟩
abbrev main_v114 : Ref sig .tc := ⟨.hbm, 163, rfl⟩
abbrev main_v115 : Ref sig .tc := ⟨.hbm, 164, rfl⟩
abbrev main_cst_23 : Ref sig .tc := ⟨.hbm, 165, rfl⟩
abbrev main_v116 : Ref sig .tc := ⟨.hbm, 166, rfl⟩
abbrev main_v117 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  bcast_S_S100000x96 : S_.BroadcastsInDim S100000x96 (![] : Fin 0 → Fin S100000x96.rank)
  bcast_S100000x1_S100000x96_0_1 : S100000x1.BroadcastsInDim S100000x96 (![0, 1] : Fin 2 → Fin S100000x96.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S100000x4 : S_.BroadcastsInDim S100000x4 (![] : Fin 0 → Fin S100000x4.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x3_S3x32_S100000x32_1_0_0_1_n_n_wf : DotDims.WF S100000x3 S3x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x96_S100000x96_1_0_0_1_n_n_wf : DotDims.WF S100000x64 S64x96 S100000x96 [1] [0] [0] [1] [] []
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S100000x96_S96x128_S100000x128_1_0_0_1_n_n_wf : DotDims.WF S100000x96 S96x128 S100000x128 [1] [0] [0] [1] [] []
  dot_S100000x128_S128x4_S100000x4_1_0_0_1_n_n_wf : DotDims.WF S100000x128 S128x4 S100000x4 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x96_S100000x96_1_0_0_1_n_n : DotDims S100000x64 S64x96 S100000x96 where
  lhsContracting := [1]
  rhsContracting := [0]
  lhsNonContracting := [0]
  rhsNonContracting := [1]
  lhsBatch := []
  rhsBatch := []
  wf := dot_S100000x64_S64x96_S100000x96_1_0_0_1_n_n_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.KernelRun.lean ====
/-
  The idealized kernel's run with its result named.

  The program is four kernel regions among four stretches of host operations. Its run is a fold of the buffer contents
  through the eight segments: a host stretch leaves every buffer at the stretch's operations applied to what it found, a
  region leaves its arrays at what its grid points wrote back and every other buffer as found. Every weakly fair execution
  terminates, nothing faulting, with EVERY unscoped buffer at the last boundary's contents; kept here of that are the
  result buffer, at the last boundary's contents by name, and the sixteen argument arrays, which end as launched.
-/
import proofs.«146768_j44418551775831_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Gen

end
-- ==== Proof.Net.lean ====
/-
  The idealized kernel's host stretches as terms. Every stretch computes, from the edge list and the current features,
  the features' mean over incoming edges: the source indices normalized (a negative index wraps by the node count), the
  rows gathered, added into the destination rows, and multiplied by the reciprocal of the incoming-edge count clamped
  below at one. The count, and its reciprocal as a column, are computed once, in the first stretch.
-/
import proofs.«146768_j44418551775831_2_alg».proof.Proof.Gen.KernelIdeal.Frame
import Idealize.ShloMosaic.PureOps.Ideal

noncomputable section

namespace Cert.KernelIdeal.Net

open Cert.KernelIdeal Cert.KernelIdeal.Gen Idealize.ShloMosaic

/-- Row 0 of the edge list: the sources. -/
def src (x1 : IVec S2x1600000 32) : IVec S1600000 32 :=
  shapeCast _ (extractStridedSlice S1x1600000 ![0, 0] x1 slices_S2x1600000_S1x1600000_0_0) shapeCasts_S1x1600000_S1600000
/-- Row 1 of the edge list: the destinations. -/
def dst (x1 : IVec S2x1600000 32) : IVec S1600000 32 :=
  shapeCast _ (extractStridedSlice S1x1600000 ![1, 0] x1 slices_S2x1600000_S1x1600000_1_0) shapeCasts_S1x1600000_S1600000
/-- The sources as the gather's start indices: a negative index wraps by 100000; one index per row. -/
def srcI (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The destinations as the scatter's indices: one index per row. -/
def dstI (d : IVec S1600000 32) : IVec S1600000x1 32 :=
  broadcastInDim S1600000x1 ![0] bcast_S1600000_S1600000x1_0 d
/-- The incoming-edge count of every node, clamped below at one. -/
def cnt (d : IVec S1600000 32) : FVec Ideal S100000 .f32 :=
  maximumf (Host.scatterAdd scatter_S100000_S1600000x1_S1600000_n_0_0_1
      (broadcastInDim S100000 ![] bcast_S_S100000 (constant S_ .f32 0x00000000#32)) (dstI d)
      (broadcastInDim S1600000 ![] bcast_S_S1600000 (constant S_ .f32 0x3F800000#32)))
    (broadcastInDim S100000 ![] bcast_S_S100000 (constant S_ .f32 0x3F800000#32))
/-- Its reciprocal, as a column. -/
def inv (d : IVec S1600000 32) : FVec Ideal S100000x1 .f32 :=
  shapeCast _ (Host.divf (broadcastInDim S100000 ![] bcast_S_S100000 (constant S_ .f32 0x3F800000#32)) (cnt d)) shapeCasts_S100000_S100000x1

/-- Layer 0's mean as the host computes it before the region: the rows gathered by source, added by destination, times
    the spread reciprocal count; the two format changes are the program's own. -/
def mean0 (h : FVec Ideal S100000x3 .bf16) (s d : IVec S1600000 32) (iv : FVec Ideal S100000x1 .f32) :
    FVec Ideal S100000x3 .bf16 :=
  truncf .bf16 (mulf (Host.scatterAdd scatter_S100000x3_S1600000x1_S1600000x3_1_0_0_1
      (broadcastInDim S100000x3 ![] bcast_S_S100000x3 (constant S_ .f32 0x00000000#32)) (dstI d)
      (extf .f32 (Host.gather gather_S100000x3_S1600000x1_S1600000x3_1_0_n_n_0_1_13 h (srcI s)) bitsLt_bf16_f32))
    (broadcastInDim S100000x3 ![0, 1] bcast_S100000x1_S100000x3_0_1 iv)) bitsLt_bf16_f32

/-- Layer 1's mean as the host computes it before the region: the rows gathered by source, added by destination, times
    the spread reciprocal count; the two format changes are the program's own. -/
def mean1 (h : FVec Ideal S100000x32 .bf16) (s d : IVec S1600000 32) (iv : FVec Ideal S100000x1 .f32) :
    FVec Ideal S100000x32 .bf16 :=
  truncf .bf16 (mulf (Host.scatterAdd scatter_S100000x32_S1600000x1_S1600000x32_1_0_0_1
      (broadcastInDim S100000x32 ![] bcast_S_S100000x32 (constant S_ .f32 0x00000000#32)) (dstI d)
      (extf .f32 (Host.gather gather_S100000x32_S1600000x1_S1600000x32_1_0_n_n_0_1_132 h (srcI s)) bitsLt_bf16_f32))
    (broadcastInDim S100000x32 ![0, 1] bcast_S100000x1_S100000x32_0_1 iv)) bitsLt_bf16_f32

/-- Layer 2's mean as the host computes it before the region: the rows gathered by source, added by destination, times
    the spread reciprocal count; the two format changes are the program's own. -/
def mean2 (h : FVec Ideal S100000x64 .bf16) (s d : IVec S1600000 32) (iv : FVec Ideal S100000x1 .f32) :
    FVec Ideal S100000x64 .bf16 :=
  truncf .bf16 (mulf (Host.scatterAdd scatter_S100000x64_S1600000x1_S1600000x64_1_0_0_1
      (broadcastInDim S100000x64 ![] bcast_S_S100000x64 (constant S_ .f32 0x00000000#32)) (dstI d)
      (extf .f32 (Host.gather gather_S100000x64_S1600000x1_S1600000x64_1_0_n_n_0_1_164 h (srcI s)) bitsLt_bf16_f32))
    (broadcastInDim S100000x64 ![0, 1] bcast_S100000x1_S100000x64_0_1 iv)) bitsLt_bf16_f32

/-- Layer 3's mean as the host computes it before the region: the rows gathered by source, added by destination, times
    the spread reciprocal count; the two format changes are the program's own. -/
def mean3 (h : FVec Ideal S100000x96 .bf16) (s d : IVec S1600000 32) (iv : FVec Ideal S100000x1 .f32) :
    FVec Ideal S100000x96 .bf16 :=
  truncf .bf16 (mulf (Host.scatterAdd scatter_S100000x96_S1600000x1_S1600000x96_1_0_0_1
      (broadcastInDim S100000x96 ![] bcast_S_S100000x96 (constant S_ .f32 0x00000000#32)) (dstI d)
      (extf .f32 (Host.gather gather_S100000x96_S1600000x1_S1600000x96_1_0_n_n_0_1_196 h (srcI s)) bitsLt_bf16_f32))
    (broadcastInDim S100000x96 ![0, 1] bcast_S100000x1_S100000x96_0_1 iv)) bitsLt_bf16_f32

end Cert.KernelIdeal.Net

end
-- ==== Proof.Fold.lean ====
/-
  The idealized kernel's buffer contents, boundary by boundary. What each host stretch leaves in the buffers the next
  region stages (the mean, the reshaped bias row) is read off the stretch's operations; a buffer that a segment does not
  write (the edge list's two rows and the reciprocal count from the first stretch, the weights and biases, the features
  between the region that wrote them and the region that reads them) holds at a later boundary what it held at an
  earlier one.
-/
import proofs.«146768_j44418551775831_2_alg».proof.Proof.Gen.KernelIdeal.Frame
import proofs.«146768_j44418551775831_2_alg».proof.Proof.Net
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Buffers carried across segments -/

theorem carry_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem carry_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem carry_v1_6_1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem carry_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem carry_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem carry_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem carry_v12_2_1 (c : Dev nD) : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)

theorem carry_v12_4_1 (c : Dev nD) : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

theorem carry_v12_6_1 (c : Dev nD) : W6 m ρ c (Proc.devRef .tc main_v12) = W1 m ρ c (Proc.devRef .tc main_v12) :=
  calc W6 m ρ c (Proc.devRef .tc main_v12)
    _ = W5 m ρ c (Proc.devRef .tc main_v12) := W6_of_ne m ρ c main_v12 (by decide)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

theorem carry_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg4_1_0 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg6_2_0 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v29_3_2 (c : Dev nD) : W3 m ρ c (Proc.devRef .tc main_v29) = W2 m ρ c (Proc.devRef .tc main_v29) :=
  calc W3 m ρ c (Proc.devRef .tc main_v29)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg5_3_0 (c : Dev nD) : W3 m ρ c (Proc.devRef .tc main_arg5) = W0 m ρ c (Proc.devRef .tc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg7_3_0 (c : Dev nD) : W3 m ρ c (Proc.devRef .tc main_arg7) = W0 m ρ c (Proc.devRef .tc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg9_4_0 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v45_5_4 (c : Dev nD) : W5 m ρ c (Proc.devRef .tc main_v45) = W4 m ρ c (Proc.devRef .tc main_v45) :=
  calc W5 m ρ c (Proc.devRef .tc main_v45)
    _ = W4 m ρ c (Proc.devRef .tc main_v45) := StableHlo.after_of_forall_not_mem (b := Proc.devRef .tc main_v45) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg8_5_0 (c : Dev nD) : W5 m ρ c (Proc.devRef .tc main_arg8) = W0 m ρ c (Proc.devRef .tc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg10_5_0 (c : Dev nD) : W5 m ρ c (Proc.devRef .tc main_arg10) = W0 m ρ c (Proc.devRef .tc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg12_6_0 (c : Dev nD) : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg15_6_0 (c : Dev nD) : W6 m ρ c (Proc.devRef .tc main_arg15) = W0 m ρ c (Proc.devRef .tc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v61_7_6 (c : Dev nD) : W7 m ρ c (Proc.devRef .tc main_v61) = W6 m ρ c (Proc.devRef .tc main_v61) :=
  calc W7 m ρ c (Proc.devRef .tc main_v61)
    _ = W6 m ρ c (Proc.devRef .tc main_v61) := StableHlo.after_of_forall_not_mem (b := Proc.devRef .tc main_v61) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg11_7_0 (c : Dev nD) : W7 m ρ c (Proc.devRef .tc main_arg11) = W0 m ρ c (Proc.devRef .tc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg13_7_0 (c : Dev nD) : W7 m ρ c (Proc.devRef .tc main_arg13) = W0 m ρ c (Proc.devRef .tc main_arg13) :=
  calc W7 m ρ c (Proc.devRef .tc main_arg13)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg14_7_0 (c : Dev nD) : W7 m ρ c (Proc.devRef .tc main_arg14) = W0 m ρ c (Proc.devRef .tc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## What the stretches leave -/

set_option maxHeartbeats 4000000 in
theorem s1_v1 (c : Dev nD) : W1 m ρ c (Proc.devRef .tc main_v1) = Net.src (m ((c : Thread nD τ).loc main_arg1)) := by
  show StableHlo.after hostOps0 (W0 m ρ c) (Proc.devRef .tc main_v1) = _
  after_results_simp <;> rfl

set_option maxHeartbeats 4000000 in
theorem s1_v3 (c : Dev nD) : W1 m ρ c (Proc.devRef .tc main_v3) = Net.dst (m ((c : Thread nD τ).loc main_arg1)) := by
  show StableHlo.after hostOps0 (W0 m ρ c) (Proc.devRef .tc main_v3) = _
  after_results_simp <;> rfl

set_option maxHeartbeats 4000000 in
theorem s1_v12 (c : Dev nD) : W1 m ρ c (Proc.devRef .tc main_v12) = Net.inv (Net.dst (m ((c : Thread nD τ).loc main_arg1))) := by
  show StableHlo.after hostOps0 (W0 m ρ c) (Proc.devRef .tc main_v12) = _
  after_results_simp <;> rfl

set_option maxHeartbeats 4000000 in
theorem s1_v13 (c : Dev nD) : W1 m ρ c (Proc.devRef .tc main_v13) = (truncf (F := Ideal) (s := S100000x3) (φ := .f32) .bf16 (m ((c : Thread nD τ).loc main_arg0)) bitsLt_bf16_f32 : FVec Ideal S100000x3 .bf16) := by
  show StableHlo.after hostOps0 (W0 m ρ c) (Proc.devRef .tc main_v13) = _
  after_results_simp <;> rfl

set_option maxHeartbeats 4000000 in
theorem s1_v27 (c : Dev nD) : W1 m ρ c (Proc.devRef .tc main_v27) = Net.mean0 (truncf .bf16 (m ((c : Thread nD τ).loc main_arg0)) bitsLt_bf16_f32) (Net.src (m ((c : Thread nD τ).loc main_arg1))) (Net.dst (m ((c : Thread nD τ).loc main_arg1))) (Net.inv (Net.dst (m ((c : Thread nD τ).loc main_arg1)))) := by
  show StableHlo.after hostOps0 (W0 m ρ c) (Proc.devRef .tc main_v27) = _
  after_results_simp <;> rfl

set_option maxHeartbeats 4000000 in
theorem s1_v28 (c : Dev nD) : W1 m ρ c (Proc.devRef .tc main_v28) = shapeCast _ (m ((c : Thread nD τ).loc main_arg3)) shapeCasts_S32_S1x32 := by
  show StableHlo.after hostOps0 (W0 m ρ c) (Proc.devRef .tc main_v28) = _
  after_results_simp <;> rfl

set_option maxHeartbeats 4000000 in
theorem s3_v43 (c : Dev nD) : W3 m ρ c (Proc.devRef .tc main_v43) = Net.mean1 (W2 m ρ c (Proc.devRef .tc main_v29)) (W2 m ρ c (Proc.devRef .tc main_v1)) (W2 m ρ c (Proc.devRef .tc main_v3)) (W2 m ρ c (Proc.devRef .tc main_v12)) := by
  show StableHlo.after hostOps1 (W2 m ρ c) (Proc.devRef .tc main_v43) = _
  after_results_simp <;> rfl

set_option maxHeartbeats 4000000 in
theorem s3_v44 (c : Dev nD) : W3 m ρ c (Proc.devRef .tc main_v44) = shapeCast _ (W2 m ρ c (Proc.devRef .tc main_arg6)) shapeCasts_S64_S1x64 := by
  show StableHlo.after hostOps1 (W2 m ρ c) (Proc.devRef .tc main_v44) = _
  after_results_simp <;> rfl

set_option maxHeartbeats 4000000 in
theorem s5_v59 (c : Dev nD) : W5 m ρ c (Proc.devRef .tc main_v59) = Net.mean2 (W4 m ρ c (Proc.devRef .tc main_v45)) (W4 m ρ c (Proc.devRef .tc main_v1)) (W4 m ρ c (Proc.devRef .tc main_v3)) (W4 m ρ c (Proc.devRef .tc main_v12)) := by
  show StableHlo.after hostOps2 (W4 m ρ c) (Proc.devRef .tc main_v59) = _
  after_results_simp <;> rfl

set_option maxHeartbeats 4000000 in
theorem s5_v60 (c : Dev nD) : W5 m ρ c (Proc.devRef .tc main_v60) = shapeCast _ (W4 m ρ c (Proc.devRef .tc main_arg9)) shapeCasts_S96_S1x96 := by
  show StableHlo.after hostOps2 (W4 m ρ c) (Proc.devRef .tc main_v60) = _
  after_results_simp <;> rfl

set_option maxHeartbeats 4000000 in
theorem s7_v75 (c : Dev nD) : W7 m ρ c (Proc.devRef .tc main_v75) = Net.mean3 (W6 m ρ c (Proc.devRef .tc main_v61)) (W6 m ρ c (Proc.devRef .tc main_v1)) (W6 m ρ c (Proc.devRef .tc main_v3)) (W6 m ρ c (Proc.devRef .tc main_v12)) := by
  show StableHlo.after hostOps3 (W6 m ρ c) (Proc.devRef .tc main_v75) = _
  after_results_simp <;> rfl

set_option maxHeartbeats 4000000 in
theorem s7_v76 (c : Dev nD) : W7 m ρ c (Proc.devRef .tc main_v76) = shapeCast _ (W6 m ρ c (Proc.devRef .tc main_arg12)) shapeCasts_S128_S1x128 := by
  show StableHlo.after hostOps3 (W6 m ρ c) (Proc.devRef .tc main_v76) = _
  after_results_simp <;> rfl

set_option maxHeartbeats 4000000 in
theorem s7_v77 (c : Dev nD) : W7 m ρ c (Proc.devRef .tc main_v77) = shapeCast _ (W6 m ρ c (Proc.devRef .tc main_arg15)) shapeCasts_S4_S1x4 := by
  show StableHlo.after hostOps3 (W6 m ρ c) (Proc.devRef .tc main_v77) = _
  after_results_simp <;> rfl

end Cert.KernelIdeal.Fold

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«146768_j44418551775831_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibSageDense.lean ====
/-
  A dense graph-convolution layer on the extended reals, entry by entry, and the three programs' forms of it.

  For a node-feature array `h` (M rows of K features), an aggregated-neighbour array `hn` of the same shape, two weight
  matrices `ws`, `wn` (K by N) and a bias row `b` (1 by N), entry (p, q) of the layer is
      (sum over k of h[p, k] * ws[k, q]) + (sum over k of hn[p, k] * wn[k, q]) + b[0, q],
  optionally clamped below at zero (the rectifier).
  * A kernel computes a block of m rows of it: two matrix-unit products into zero accumulators, added, plus the bias row
    spread down the block. Entry (r, q) of the block is the layer's entry of the block's own rows.
  * A host program computes the whole array: two `dot_general`s, added, plus the bias row spread down the array.
  Neither needs finiteness: both are literally the same sums in the same grouping.
  General in every extent.
-/
import Idealize.ShloMosaic.PureOps.Ideal.Laws
import Idealize.ShloMosaic.Lib.ValueIdx
import Idealize.ShloMosaic.Lib.ValueLayout
import Idealize.ShloMosaic.Lib.Pipeline.Value
import proofs.«146768_j44418551775831_2_alg».proof.Proof.LibMatmulNN
import proofs.«146768_j44418551775831_2_alg».proof.Proof.LibDotGeneralNN
import proofs.«146768_j44418551775831_2_alg».proof.Proof.LibBroadcastInDimPair

noncomputable section

open scoped BigOperators

namespace LibSageDense

open Idealize.ShloMosaic Idealize.ShloMosaic.ValueIdx

variable (M K N : Nat)

/-- Entry `(p, q)` of the layer: the two contractions over the K features, added, plus the bias of column `q`. -/
def entry (h hn : (⟨2, ![M, K]⟩ : Shape).Idx → EReal) (ws wn : (⟨2, ![K, N]⟩ : Shape).Idx → EReal)
    (b : (⟨2, ![1, N]⟩ : Shape).Idx → EReal) (p : Fin M) (q : Fin N) : EReal :=
  (∑ k : Fin K, h (ix2 p k) * ws (ix2 k q)) + (∑ k : Fin K, hn (ix2 p k) * wn (ix2 k q)) + b (ix2 (0 : Fin 1) q)

/-- The layer as one array, without the rectifier. -/
def dense (h hn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => entry M K N h hn ws wn b (i 0) (i 1)

/-- The layer as one array, clamped below at zero. -/
def denseRelu (h hn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => max (entry M K N h hn ws wn b (i 0) (i 1)) 0

theorem dense_apply (h hn : (⟨2, ![M, K]⟩ : Shape).Idx → EReal) (ws wn : (⟨2, ![K, N]⟩ : Shape).Idx → EReal)
    (b : (⟨2, ![1, N]⟩ : Shape).Idx → EReal) (p : Fin M) (q : Fin N) :
    dense M K N h hn ws wn b (ix2 p q) = entry M K N h hn ws wn b p q := rfl

theorem denseRelu_apply (h hn : (⟨2, ![M, K]⟩ : Shape).Idx → EReal) (ws wn : (⟨2, ![K, N]⟩ : Shape).Idx → EReal)
    (b : (⟨2, ![1, N]⟩ : Shape).Idx → EReal) (p : Fin M) (q : Fin N) :
    denseRelu M K N h hn ws wn b (ix2 p q) = max (entry M K N h hn ws wn b p q) 0 := rfl

/-- A block's entry is the whole array's entry of the block's row: the block's rows of `h` and `hn` are rows `p` of the
    arrays, the weights and the bias are the arrays themselves. -/
theorem entry_of_rows {m : Nat} (x0 x1 : (⟨2, ![m, K]⟩ : Shape).Idx → EReal) (h hn : (⟨2, ![M, K]⟩ : Shape).Idx → EReal)
    (ws wn : (⟨2, ![K, N]⟩ : Shape).Idx → EReal) (b : (⟨2, ![1, N]⟩ : Shape).Idx → EReal) (r : Fin m) (p : Fin M) (q : Fin N)
    (h0 : ∀ k : Fin K, x0 (ix2 r k) = h (ix2 p k)) (h1 : ∀ k : Fin K, x1 (ix2 r k) = hn (ix2 p k)) :
    entry m K N x0 x1 ws wn b r q = entry M K N h hn ws wn b p q := by
  unfold entry
  simp only [h0, h1]

/-- THE KERNEL'S BLOCK: two products of the block's rows with the weights into zero accumulators, added, plus the bias row
    spread down the block, at `(r, q)`. The operands may carry any float format (a format change is the identity on the
    extended reals). `D` is any spelling of the plain contraction record. -/
theorem block_apply {m : Nat} {φ₁ φ₂ : FTy} (D : DotDims ⟨2, ![m, K]⟩ ⟨2, ![K, N]⟩ ⟨2, ![m, N]⟩) (hD : D = DotDims.plain m K N)
    (prec : Option ContractPrecision)
    (x0 x1 : FVec Ideal ⟨2, ![m, K]⟩ φ₁) (w0 w1 : FVec Ideal ⟨2, ![K, N]⟩ φ₂) (b : FVec Ideal ⟨2, ![1, N]⟩ .f32)
    (hb : (⟨2, ![1, N]⟩ : Shape).Broadcasts ⟨2, ![m, N]⟩) (r : Fin m) (q : Fin N) :
    (FloatOps.matmul D prec x0 w0 (constant (F := Ideal) ⟨2, ![m, N]⟩ .f32 0x00000000#32) (ix2 r q)
      + FloatOps.matmul D prec x1 w1 (constant (F := Ideal) ⟨2, ![m, N]⟩ .f32 0x00000000#32) (ix2 r q))
      + broadcastTo ⟨2, ![m, N]⟩ b hb (ix2 r q)
      = entry m K N x0 x1 w0 w1 b r q := by
  subst hD
  rw [LibMatmulNN.matmul_zero_apply, LibMatmulNN.matmul_zero_apply, broadcastTo_1b_ab_apply]
  rfl

/-- A vector `[N]` placed on axis 1 of a one-row array `[1, N]` reads, at `(u, q)`, the vector at `q`. -/
theorem broadcastInDim_vec_row_apply {α : Type} (v : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h v (ix2 u q) = v (ix1 q) := by
  refine broadcastInDim_apply _ h v (ix2 u q) (ix1 q) fun ax => ?_
  match ax with
  | ⟨0, _⟩ =>
    show q.val = if N = 1 then 0 else q.val
    split
    · have := q.isLt; omega
    · rfl

/-- A vector `[N]` reshaped to a one-row array `[1, N]` is the vector placed on axis 1 of it. -/
theorem shapeCast_row_eq_broadcastInDim {α : Type} (v : (⟨1, ![N]⟩ : Shape).Idx → α)
    (hs : (⟨1, ![N]⟩ : Shape).ShapeCasts ⟨2, ![1, N]⟩) (h : (⟨1, ![N]⟩ : Shape).BroadcastsInDim ⟨2, ![1, N]⟩ ![1]) :
    shapeCast ⟨2, ![1, N]⟩ v hs = broadcastInDim ⟨2, ![1, N]⟩ ![1] h v := by
  funext i
  obtain ⟨u, q, rfl⟩ : ∃ (u : Fin 1) (q : Fin N), i = ix2 u q := ⟨i 0, i 1, eq_ix2 i⟩
  rw [shapeCast_a_1a_apply, broadcastInDim_vec_row_apply]

/-- THE HOST'S LAYER: two `dot_general`s added, plus the bias row spread down the array, is the layer. `D` is any spelling
    of the plain contraction record. -/
theorem host_dense {φ₁ φ₂ : FTy} (D : DotDims ⟨2, ![M, K]⟩ ⟨2, ![K, N]⟩ ⟨2, ![M, N]⟩) (hD : D = DotDims.plain M K N)
    (prec : Option ContractPrecision) (sched : HostSchedule)
    (h hn : FVec Ideal ⟨2, ![M, K]⟩ φ₁) (ws wn : FVec Ideal ⟨2, ![K, N]⟩ φ₂) (b : FVec Ideal ⟨2, ![1, N]⟩ .f32)
    (hb : (⟨2, ![1, N]⟩ : Shape).BroadcastsInDim ⟨2, ![M, N]⟩ ![0, 1]) :
    (fun i => (FloatOps.dotGeneral D prec sched h ws i + FloatOps.dotGeneral D prec sched hn wn i)
        + broadcastInDim ⟨2, ![M, N]⟩ ![0, 1] hb b i)
      = dense M K N h hn ws wn b := by
  subst hD
  funext i
  obtain ⟨p, q, rfl⟩ : ∃ (p : Fin M) (q : Fin N), i = ix2 p q := ⟨i 0, i 1, eq_ix2 i⟩
  rw [LibDotGeneralNN.dotGeneral_apply, LibDotGeneralNN.dotGeneral_apply, broadcastInDim_row_apply]
  rfl

/-- THE HOST'S LAYER WITH THE RECTIFIER: the maximum of the host's layer with an all-zero array is the clamped layer. -/
theorem host_denseRelu {φ₁ φ₂ : FTy} (D : DotDims ⟨2, ![M, K]⟩ ⟨2, ![K, N]⟩ ⟨2, ![M, N]⟩) (hD : D = DotDims.plain M K N)
    (prec : Option ContractPrecision) (sched : HostSchedule)
    (h hn : FVec Ideal ⟨2, ![M, K]⟩ φ₁) (ws wn : FVec Ideal ⟨2, ![K, N]⟩ φ₂) (b : FVec Ideal ⟨2, ![1, N]⟩ .f32)
    (hb : (⟨2, ![1, N]⟩ : Shape).BroadcastsInDim ⟨2, ![M, N]⟩ ![0, 1])
    (z : (⟨2, ![M, N]⟩ : Shape).Idx → EReal) (hz : ∀ i, z i = 0) :
    (fun i => max ((FloatOps.dotGeneral D prec sched h ws i + FloatOps.dotGeneral D prec sched hn wn i)
        + broadcastInDim ⟨2, ![M, N]⟩ ![0, 1] hb b i) (z i))
      = denseRelu M K N h hn ws wn b := by
  funext i
  rw [hz i]
  exact congrArg (fun y => max y (0 : EReal)) (congrFun (host_dense M K N D hD prec sched h hn ws wn b hb) i)

end LibSageDense

end
-- ==== Proof.LibLayerAlgebra.lean ====
/-
  The two laws that join the kernel's dense layer to the reference's, on the extended reals.

  * The kernel scales a row of aggregated sums by the RECIPROCAL of the row's count, `a · (1 / y)`, where the
    reference DIVIDES by the count, `a / y`. For a real `y ≠ 0` these agree for every extended real `a`, the
    infinities included: the quotient by a nonzero real is by definition the product with its real reciprocal.
  * The kernel adds the two matrix products first and the bias last, the reference adds the bias between them.
    Addition of extended reals is commutative and associative, so the groupings agree with no finiteness.
-/
import Idealize.ShloMosaic.PureOps.Ideal.Laws

noncomputable section

namespace LibLayerAlgebra

open Idealize.ShloMosaic

/-- Multiplying by the reciprocal of a nonzero real is dividing by it. `one` is any spelling of the real one. -/
theorem mul_recip_eq_div {one : EReal} (hone : one = 1) {y : ℝ} (hy : y ≠ 0) (a : EReal) :
    a * Ideal.div one (y : EReal) = Ideal.div a (y : EReal) := by
  rw [hone, Ideal.div_coe hy 1, one_mul, Ideal.div_coe hy a]

/-- The bias added last is the bias added between the two products. -/
theorem bias_last_eq_between (A B b : EReal) : (A + B) + b = (A + b) + B := add_right_comm A B b

end LibLayerAlgebra

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.LibMeanScale.lean ====
/-
  The mean over incoming edges, scaled two ways, on the extended reals.

  A mean-aggregating graph layer sums the features of a node's in-neighbours and divides by the node's in-degree (at
  least one). One program multiplies every row `p` of the sums by the reciprocal `1 / cnt[p]`, computed once; another divides
  row `p` by `cnt[p]`. When every count is a positive real the two arrays are equal, entry by entry and for every
  extended-real sum, the infinities included: the quotient by a nonzero real is the product with its real reciprocal.
  Also here: the layout steps that carry a per-node vector to a per-entry array (a vector `[a]` placed as the column
  `[a, 1]`, a scalar spread over a whole array), read at an index; and that counting edges by scattering ones into zeros
  and taking the maximum with one gives a positive real at every node.
  General in every extent.
-/
import Idealize.ShloMosaic.PureOps.Ideal.Laws
import Idealize.ShloMosaic.Lib.ValueIdx
import Idealize.ShloMosaic.Lib.Pipeline.Value
import proofs.«146768_j44418551775831_2_alg».proof.Proof.LibLayerAlgebra
import proofs.«146768_j44418551775831_2_alg».proof.Proof.LibMeanAlgebra
import proofs.«146768_j44418551775831_2_alg».proof.Proof.LibBroadcastInDimPair

noncomputable section

namespace LibMeanScale

open Idealize.ShloMosaic Idealize.ShloMosaic.ValueIdx

/-- A vector `[a]` placed on axis 0 of a column `[a, 1]` reads, at `(p, u)`, the vector at `p`. -/
theorem broadcastInDim_vec_col_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar spread over a whole array reads, at every index, the scalar. -/
theorem broadcastInDim_scalar_apply {α : Type} {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

/-- A per-node vector carried to a per-entry array (column, then spread along the features) reads, at `(p, q)`, the
    vector at `p`. -/
theorem spread_apply {α : Type} {a b : Nat} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_col_apply, broadcastInDim_vec_col_apply]

/-- MULTIPLYING BY THE RECIPROCAL COUNT IS DIVIDING BY THE COUNT, array against array: for counts that are positive
    reals and `one` the all-ones vector. -/
theorem mul_recip_eq_div {a b : Nat} (agg : FVec Ideal ⟨2, ![a, b]⟩ .f32) (one cnt : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, b]⟩ ![0, 1])
    (hone : ∀ i, one i = 1) (hcnt : ∀ i, ∃ y : ℝ, 0 < y ∧ cnt i = (y : EReal)) :
    mulf agg (broadcastInDim ⟨2, ![a, b]⟩ ![0, 1] h2 (broadcastInDim ⟨2, ![a, 1]⟩ ![0] h1 (Host.divf one cnt)))
      = Host.divf agg (broadcastInDim ⟨2, ![a, b]⟩ ![0, 1] h2 (broadcastInDim ⟨2, ![a, 1]⟩ ![0] h1 cnt)) := by
  funext i
  obtain ⟨p, q, rfl⟩ : ∃ (p : Fin a) (q : Fin b), i = ix2 p q := ⟨i 0, i 1, eq_ix2 i⟩
  show agg (ix2 p q) * broadcastInDim ⟨2, ![a, b]⟩ ![0, 1] h2 (broadcastInDim ⟨2, ![a, 1]⟩ ![0] h1 (Host.divf one cnt)) (ix2 p q)
    = Ideal.div (agg (ix2 p q)) (broadcastInDim ⟨2, ![a, b]⟩ ![0, 1] h2 (broadcastInDim ⟨2, ![a, 1]⟩ ![0] h1 cnt) (ix2 p q))
  rw [spread_apply, spread_apply]
  obtain ⟨y, hy, e⟩ := hcnt (ix1 p)
  show agg (ix2 p q) * Ideal.div (one (ix1 p)) (cnt (ix1 p)) = Ideal.div (agg (ix2 p q)) (cnt (ix1 p))
  rw [e]
  exact LibLayerAlgebra.mul_recip_eq_div (hone _) (ne_of_gt hy) _

/-- COUNTING IN-EDGES: ones scattered into zeros, then the maximum with one, is a positive real at every node. -/
theorem count_pos {s si su : Shape} (d : ScatterDims s si su) {w : Nat} (zero one' : FVec Ideal s .f32) (idx : IVec si w)
    (one : FVec Ideal su .f32) (hz : ∀ i, zero i = 0) (ho : ∀ j, one j = 1) (ho' : ∀ i, one' i = 1) (i : s.Idx) :
    ∃ y : ℝ, 0 < y ∧ maximumf (Host.scatterAdd d zero idx one) one' i = (y : EReal) :=
  LibMeanAlgebra.max_one_pos (ho' i) (LibMeanAlgebra.scatter_ones_real d zero idx one i (hz i) ho)

end LibMeanScale

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.LibSageLaw.lean ====
/-
  One graph-convolution layer in two arrangements, and the output head in two spellings, as arrays of extended reals.

  A layer takes node features `h` (N rows of K features), gathers the rows named by the edges' sources, adds each gathered
  row into the row named by the edge's destination (`agg`), divides by the number of incoming edges clamped below at
  one (`cnt`, a positive real at every node), and forms  max(mean · Wl + h · Wr + b, 0).
  * One arrangement multiplies `agg` by the reciprocal `1 / cnt` (computed once as a vector, reshaped to a column and spread
    along the features), adds the two products first and the bias row (the bias vector reshaped to one row) last.
  * The other divides `agg` by `cnt` (placed on a column and spread), and adds the bias (placed on a row and spread)
    between the two products.
  Multiplying by the reciprocal of a nonzero REAL is dividing by it on every extended real, and a sum of three extended
  reals may be regrouped freely, so the two arrangements are one array: nothing here asks the features or the weights
  to be finite. A change of float format is the identity on the extended reals.

  The head applies the logistic function to an affine map of the last layer's features; spelled as one operation or as
  1 / (1 + exp (-y)) it is the same function of `y`, infinities included.
-/
import Idealize.ShloMosaic.PureOps.Ideal.Laws
import Idealize.ShloMosaic.Lib.ValueIdx
import Idealize.ShloMosaic.Lib.ValueLayout
import Idealize.ShloMosaic.Lib.Pipeline.Value
import proofs.«146768_j44418551775831_2_alg».proof.Proof.LibSageDense
import proofs.«146768_j44418551775831_2_alg».proof.Proof.LibMeanScale
import proofs.«146768_j44418551775831_2_alg».proof.Proof.LibVecToColumn

noncomputable section

open scoped BigOperators

namespace LibSageLaw

open Idealize.ShloMosaic Idealize.ShloMosaic.ValueIdx

/-- A vector `[a]` reshaped to a column `[a, 1]` is the vector placed on axis 0 of the column. -/
theorem shapeCast_col_eq_broadcastInDim {α : Type} {a : Nat} (v : (⟨1, ![a]⟩ : Shape).Idx → α)
    (hs : (⟨1, ![a]⟩ : Shape).ShapeCasts ⟨2, ![a, 1]⟩) (h : (⟨1, ![a]⟩ : Shape).BroadcastsInDim ⟨2, ![a, 1]⟩ ![0]) :
    shapeCast ⟨2, ![a, 1]⟩ v hs = broadcastInDim ⟨2, ![a, 1]⟩ ![0] h v := by
  funext i
  obtain ⟨p, u, rfl⟩ : ∃ (p : Fin a) (u : Fin 1), i = ix2 p u := ⟨i 0, i 1, eq_ix2 i⟩
  obtain rfl : u = 0 := Subsingleton.elim _ _
  rw [LibVecToColumn.vec_to_col_apply, LibMeanScale.broadcastInDim_vec_col_apply]

/-- THE MEAN: the aggregate times the reshaped, spread reciprocal count is the aggregate divided by the count placed on
    a column and spread, for counts that are positive reals. -/
theorem mean_eq {a b : Nat} (agg : FVec Ideal ⟨2, ![a, b]⟩ .f32) (one cnt : FVec Ideal ⟨1, ![a]⟩ .f32)
    (hs : (⟨1, ![a]⟩ : Shape).ShapeCasts ⟨2, ![a, 1]⟩)
    (h1 : (⟨1, ![a]⟩ : Shape).BroadcastsInDim ⟨2, ![a, 1]⟩ ![0])
    (h2 : (⟨2, ![a, 1]⟩ : Shape).BroadcastsInDim ⟨2, ![a, b]⟩ ![0, 1])
    (hone : ∀ i, one i = 1) (hcnt : ∀ i, ∃ y : ℝ, 0 < y ∧ cnt i = (y : EReal)) :
    mulf agg (broadcastInDim ⟨2, ![a, b]⟩ ![0, 1] h2 (shapeCast ⟨2, ![a, 1]⟩ (Host.divf one cnt) hs))
      = Host.divf agg (broadcastInDim ⟨2, ![a, b]⟩ ![0, 1] h2 (broadcastInDim ⟨2, ![a, 1]⟩ ![0] h1 cnt)) := by
  rw [shapeCast_col_eq_broadcastInDim _ hs h1]
  exact LibMeanScale.mul_recip_eq_div agg one cnt h1 h2 hone hcnt

variable (Nn K Dd : Nat)

/-- THE DENSE PART: the clamped layer over the bias vector reshaped to a row, in the grouping (A + B) + b, is the host's
    max((A + b') + B, z) with the bias placed on a row and spread and `z` all zeros. -/
theorem dense_eq (D : DotDims ⟨2, ![Nn, K]⟩ ⟨2, ![K, Dd]⟩ ⟨2, ![Nn, Dd]⟩) (hD : D = DotDims.plain Nn K Dd)
    (prec : Option ContractPrecision)
    (mean h : FVec Ideal ⟨2, ![Nn, K]⟩ .f32) (wl wr : FVec Ideal ⟨2, ![K, Dd]⟩ .f32) (b : FVec Ideal ⟨1, ![Dd]⟩ .f32)
    (hsr : (⟨1, ![Dd]⟩ : Shape).ShapeCasts ⟨2, ![1, Dd]⟩)
    (hb1 : (⟨1, ![Dd]⟩ : Shape).BroadcastsInDim ⟨2, ![1, Dd]⟩ ![1])
    (hb2 : (⟨2, ![1, Dd]⟩ : Shape).BroadcastsInDim ⟨2, ![Nn, Dd]⟩ ![0, 1])
    (z : FVec Ideal ⟨2, ![Nn, Dd]⟩ .f32) (hz : ∀ i, z i = 0) :
    LibSageDense.denseRelu Nn K Dd mean h wl wr (shapeCast ⟨2, ![1, Dd]⟩ b hsr)
      = maximumf (addf (addf (Host.dotGeneral D prec mean wl)
            (broadcastInDim ⟨2, ![Nn, Dd]⟩ ![0, 1] hb2 (broadcastInDim ⟨2, ![1, Dd]⟩ ![1] hb1 b)))
          (Host.dotGeneral D prec h wr)) z := by
  subst hD
  funext i
  obtain ⟨p, q, rfl⟩ : ∃ (p : Fin Nn) (q : Fin Dd), i = ix2 p q := ⟨i 0, i 1, eq_ix2 i⟩
  rw [LibSageDense.denseRelu_apply]
  show max (LibSageDense.entry Nn K Dd mean h wl wr (shapeCast ⟨2, ![1, Dd]⟩ b hsr) p q) 0
    = max ((FloatOps.dotGeneral (DotDims.plain Nn K Dd) prec .single mean wl (ix2 p q)
          + broadcastInDim ⟨2, ![Nn, Dd]⟩ ![0, 1] hb2 (broadcastInDim ⟨2, ![1, Dd]⟩ ![1] hb1 b) (ix2 p q))
        + FloatOps.dotGeneral (DotDims.plain Nn K Dd) prec .single h wr (ix2 p q)) (z (ix2 p q))
  rw [hz, LibDotGeneralNN.dotGeneral_apply, LibDotGeneralNN.dotGeneral_apply, broadcastInDim_row_apply,
    LibSageDense.shapeCast_row_eq_broadcastInDim Dd b hsr hb1]
  unfold LibSageDense.entry
  rw [LibLayerAlgebra.bias_last_eq_between]

/-- A scalar zero spread over an array reads zero everywhere; a scalar one, one. -/
theorem spread_zero {s : Shape} (h : (⟨0, ![]⟩ : Shape).BroadcastsInDim s ![]) (i : s.Idx) :
    broadcastInDim s ![] h (constant (F := Ideal) ⟨0, ![]⟩ .f32 0x00000000#32) i = 0 := by
  rw [LibMeanScale.broadcastInDim_scalar_apply]
  exact Ideal.ofBits_zero_f32
theorem spread_one {s : Shape} (h : (⟨0, ![]⟩ : Shape).BroadcastsInDim s ![]) (i : s.Idx) :
    broadcastInDim s ![] h (constant (F := Ideal) ⟨0, ![]⟩ .f32 0x3F800000#32) i = 1 := by
  rw [LibMeanScale.broadcastInDim_scalar_apply]
  exact LibMeanAlgebra.ofBits_one

/-- THE LAYER, both arrangements over ONE feature array `h`: gathered by `si`, added by `di` into `zero`; the
    arrangement that multiplies by the reshaped reciprocal count and adds the bias row last (its two format changes the
    identity) is the arrangement that divides by the count and adds the bias between the products. -/
theorem layer_eq {E w : Nat}
    (gd : GatherDims ⟨2, ![Nn, K]⟩ ⟨2, ![E, 1]⟩ ⟨2, ![E, K]⟩) (sd : ScatterDims ⟨2, ![Nn, K]⟩ ⟨2, ![E, 1]⟩ ⟨2, ![E, K]⟩)
    (D : DotDims ⟨2, ![Nn, K]⟩ ⟨2, ![K, Dd]⟩ ⟨2, ![Nn, Dd]⟩) (hD : D = DotDims.plain Nn K Dd) (prec : Option ContractPrecision)
    (h : (⟨2, ![Nn, K]⟩ : Shape).Idx → EReal) (zero : FVec Ideal ⟨2, ![Nn, K]⟩ .f32) (di si : IVec ⟨2, ![E, 1]⟩ w)
    (one cnt : FVec Ideal ⟨1, ![Nn]⟩ .f32) (wl wr : FVec Ideal ⟨2, ![K, Dd]⟩ .f32) (b : FVec Ideal ⟨1, ![Dd]⟩ .f32)
    (hlt : FTy.bits .bf16 < FTy.bits .f32)
    (hs : (⟨1, ![Nn]⟩ : Shape).ShapeCasts ⟨2, ![Nn, 1]⟩)
    (h1 : (⟨1, ![Nn]⟩ : Shape).BroadcastsInDim ⟨2, ![Nn, 1]⟩ ![0])
    (h2 : (⟨2, ![Nn, 1]⟩ : Shape).BroadcastsInDim ⟨2, ![Nn, K]⟩ ![0, 1])
    (hsr : (⟨1, ![Dd]⟩ : Shape).ShapeCasts ⟨2, ![1, Dd]⟩)
    (hb1 : (⟨1, ![Dd]⟩ : Shape).BroadcastsInDim ⟨2, ![1, Dd]⟩ ![1])
    (hb2 : (⟨2, ![1, Dd]⟩ : Shape).BroadcastsInDim ⟨2, ![Nn, Dd]⟩ ![0, 1])
    (z : FVec Ideal ⟨2, ![Nn, Dd]⟩ .f32) (hz : ∀ i, z i = 0)
    (hone : ∀ i, one i = 1) (hcnt : ∀ i, ∃ y : ℝ, 0 < y ∧ cnt i = (y : EReal)) :
    LibSageDense.denseRelu Nn K Dd
        (truncf (F := Ideal) (φ := .f32) .bf16 (mulf (Host.scatterAdd sd zero di
            (extf (F := Ideal) (φ := .bf16) .f32 (Host.gather gd h si) hlt))
          (broadcastInDim ⟨2, ![Nn, K]⟩ ![0, 1] h2 (shapeCast ⟨2, ![Nn, 1]⟩ (Host.divf one cnt) hs))) hlt)
        h wl wr (shapeCast ⟨2, ![1, Dd]⟩ b hsr)
      = maximumf (addf (addf (Host.dotGeneral D prec (Host.divf (Host.scatterAdd sd zero di (Host.gather gd h si))
              (broadcastInDim ⟨2, ![Nn, K]⟩ ![0, 1] h2 (broadcastInDim ⟨2, ![Nn, 1]⟩ ![0] h1 cnt))) wl)
            (broadcastInDim ⟨2, ![Nn, Dd]⟩ ![0, 1] hb2 (broadcastInDim ⟨2, ![1, Dd]⟩ ![1] hb1 b)))
          (Host.dotGeneral (φ₁ := .f32) D prec h wr)) z := by
  have hm := mean_eq (Host.scatterAdd sd zero di (Host.gather gd h si)) one cnt hs h1 h2 hone hcnt
  rw [← dense_eq Nn K Dd D hD prec _ h wl wr b hsr hb1 hb2 z hz, ← hm]
  rfl

/-- THE HEAD, entry by entry: the logistic function of an affine map of the features. -/
def head (C : Nat) (h : (⟨2, ![Nn, Dd]⟩ : Shape).Idx → EReal) (wf : (⟨2, ![Dd, C]⟩ : Shape).Idx → EReal)
    (bf : (⟨2, ![1, C]⟩ : Shape).Idx → EReal) : (⟨2, ![Nn, C]⟩ : Shape).Idx → EReal :=
  fun i => Ideal.logistic ((∑ j : Fin Dd, h (ix2 (i 0) j) * wf (ix2 j (i 1))) + bf (ix2 (0 : Fin 1) (i 1)))

theorem head_apply (C : Nat) (h : (⟨2, ![Nn, Dd]⟩ : Shape).Idx → EReal) (wf : (⟨2, ![Dd, C]⟩ : Shape).Idx → EReal)
    (bf : (⟨2, ![1, C]⟩ : Shape).Idx → EReal) (p : Fin Nn) (q : Fin C) :
    head Nn Dd C h wf bf (ix2 p q)
      = Ideal.logistic ((∑ j : Fin Dd, h (ix2 p j) * wf (ix2 j q)) + bf (ix2 (0 : Fin 1) q)) := rfl

/-- THE HEAD on the host: 1 / (1 + exp (-(h · Wf + bf'))) with the two ones any spellings of 1 is the head over the bias
    vector reshaped to a row. -/
theorem head_eq (C : Nat) (D : DotDims ⟨2, ![Nn, Dd]⟩ ⟨2, ![Dd, C]⟩ ⟨2, ![Nn, C]⟩) (hD : D = DotDims.plain Nn Dd C)
    (prec : Option ContractPrecision)
    (h : FVec Ideal ⟨2, ![Nn, Dd]⟩ .f32) (wf : FVec Ideal ⟨2, ![Dd, C]⟩ .f32) (bf : FVec Ideal ⟨1, ![C]⟩ .f32)
    (hsr : (⟨1, ![C]⟩ : Shape).ShapeCasts ⟨2, ![1, C]⟩)
    (hb1 : (⟨1, ![C]⟩ : Shape).BroadcastsInDim ⟨2, ![1, C]⟩ ![1])
    (hb2 : (⟨2, ![1, C]⟩ : Shape).BroadcastsInDim ⟨2, ![Nn, C]⟩ ![0, 1])
    (one one' : FVec Ideal ⟨2, ![Nn, C]⟩ .f32) (h1 : ∀ i, one i = 1) (h1' : ∀ i, one' i = 1) :
    head Nn Dd C h wf (shapeCast ⟨2, ![1, C]⟩ bf hsr)
      = Host.divf one (addf one' (Host.exp (Host.negf (addf (Host.dotGeneral D prec h wf)
          (broadcastInDim ⟨2, ![Nn, C]⟩ ![0, 1] hb2 (broadcastInDim ⟨2, ![1, C]⟩ ![1] hb1 bf)))))) := by
  subst hD
  funext i
  obtain ⟨p, q, rfl⟩ : ∃ (p : Fin Nn) (q : Fin C), i = ix2 p q := ⟨i 0, i 1, eq_ix2 i⟩
  rw [head_apply]
  show _ = Ideal.div (one (ix2 p q)) (one' (ix2 p q) + Ideal.exp (-(FloatOps.dotGeneral (DotDims.plain Nn Dd C) prec .single h wf (ix2 p q)
      + broadcastInDim ⟨2, ![Nn, C]⟩ ![0, 1] hb2 (broadcastInDim ⟨2, ![1, C]⟩ ![1] hb1 bf) (ix2 p q))))
  rw [h1, h1', LibDotGeneralNN.dotGeneral_apply, broadcastInDim_row_apply,
    LibSageDense.shapeCast_row_eq_broadcastInDim C bf hsr hb1]
  rfl

end LibSageLaw

end
-- ==== Proof.KNet.lean ====
/-
  The idealized kernel's features after each layer, and its result, as functions of the sixteen argument arrays: each
  layer is the clamped dense layer of the mean of the previous features and the previous features themselves; the result
  is the head of the last layer.
-/
import proofs.«146768_j44418551775831_2_alg».proof.Proof.Net
import proofs.«146768_j44418551775831_2_alg».proof.Proof.LibSageDense
import proofs.«146768_j44418551775831_2_alg».proof.Proof.LibSageLaw

noncomputable section

namespace Cert.KernelIdeal.Net

open Cert.KernelIdeal Cert.KernelIdeal.Gen Idealize.ShloMosaic

/-- The input features in the narrow format. -/
def K0 (x0 : FVec Ideal S100000x3 .f32) : FVec Ideal S100000x3 .bf16 := truncf .bf16 x0 bitsLt_bf16_f32
/-- The features after layer 0. -/
def K1 (x0 : FVec Ideal S100000x3 .f32) (x1 : IVec S2x1600000 32) (x2 : FVec Ideal S3x32 .f32) (x3 : FVec Ideal S32 .f32) (x4 : FVec Ideal S3x32 .f32) : FVec Ideal S100000x32 .bf16 :=
  LibSageDense.denseRelu 100000 3 32 (mean0 (K0 x0) (src x1) (dst x1) (inv (dst x1))) (K0 x0) x2 x4 (shapeCast _ x3 shapeCasts_S32_S1x32)
/-- The features after layer 1. -/
def K2 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) : FVec Ideal S100000x64 .bf16 :=
  LibSageDense.denseRelu 100000 32 64 (mean1 (K1 x0 x1 x2 x3 x4) (src x1) (dst x1) (inv (dst x1))) (K1 x0 x1 x2 x3 x4) x5 x7 (shapeCast _ x6 shapeCasts_S64_S1x64)
/-- The features after layer 2. -/
def K3 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) : FVec Ideal S100000x96 .bf16 :=
  LibSageDense.denseRelu 100000 64 96 (mean2 (K2 x0 x1 x2 x3 x4 x5 x6 x7) (src x1) (dst x1) (inv (dst x1))) (K2 x0 x1 x2 x3 x4 x5 x6 x7) x8 x10 (shapeCast _ x9 shapeCasts_S96_S1x96)
/-- The result: the head of layer 3. -/
def KOut (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) (x11 : FVec Ideal S96x128 .f32) (x12 : FVec Ideal S128 .f32) (x13 : FVec Ideal S96x128 .f32) (x14 : FVec Ideal S128x4 .f32) (x15 : FVec Ideal S4 .f32) : FVec Ideal S100000x4 .f32 :=
  LibSageLaw.head 100000 128 4
    (LibSageDense.denseRelu 100000 96 128 (mean3 (K3 x0 x1 x2 x3 x4 x5 x6 x7 x8 x9 x10) (src x1) (dst x1) (inv (dst x1))) (K3 x0 x1 x2 x3 x4 x5 x6 x7 x8 x9 x10) x11 x13 (shapeCast _ x12 shapeCasts_S128_S1x128))
    x14 (shapeCast _ x15 shapeCasts_S4_S1x4)

end Cert.KernelIdeal.Net

end
-- ==== Proof.Region0.lean ====
/-
  Region 0 as one array. A grid point stages 5000 rows of the mean and of the features, the two weight matrices and
  the bias row, and writes back 5000 rows of the layer: entry (r, q) of the written block is the clamped layer's entry of
  the block's own row, so block t of the output is rows 5000 t .. 5000 t + 4999 of ONE array, the clamped layer of the
  whole operands; the twenty blocks tile the output.
-/
import proofs.«146768_j44418551775831_2_alg».proof.Proof.Gen.KernelIdeal.Frame
import proofs.«146768_j44418551775831_2_alg».proof.Proof.LibSageDense
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (r, q): the clamped layer's entry over the block's own rows. -/
theorem pay_apply (x0 x1 : Vec Ideal S5000x3 .bf16) (x2 x4 : Vec Ideal S3x32 .f32) (x3 : Vec Ideal S1x32 .f32)
    (r : Fin 5000) (q : Fin 32) :
    k0_pay1 (F := Ideal) x0 x1 x2 x4 x3 (ix2 r q) = max (LibSageDense.entry 5000 3 32 x0 x1 x2 x4 x3 r q) 0 := by
  have e := LibSageDense.block_apply 3 32 (m := 5000) (φ₁ := .bf16) (φ₂ := .bf16) dot_S5000x3_S3x32_S5000x32_1_0_0_1_n_n rfl none
    x0 x1 (truncf .bf16 x2 bitsLt_bf16_f32) (truncf .bf16 x4 bitsLt_bf16_f32) x3 broadcasts_S1x32_S5000x32 r q
  refine Eq.trans ?_ (congrArg (fun y : EReal => max y (0 : EReal)) e)
  unfold k0_pay1
  simp only [shapeCast_self]
  show max _ (Ideal.ofBits .f32 0x00000000#32) = max _ (0 : EReal)
  rw [Ideal.ofBits_zero_f32]
  rfl

/-- The printed index maps over the grid: the row blocks of the mean and the features move with the output's, the
    weights and the bias stay at block (0, 0), and the output's row block is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the output ends at: the clamped layer of the operands as the region finds them. -/
abbrev G (c : Dev nD) : S100000x32.Idx → EReal :=
  LibSageDense.denseRelu 100000 3 32 (V c main_v27) (V c main_v13) (V c main_arg2) (V c main_arg4) (V c main_v28)

/-- The stored block at an index of the block against the clamped layer at an index of the array, once the block's
    rows are the array's rows and the column is the same. -/
theorem block_entry (x0 x1 : Vec Ideal S5000x3 .bf16) (x2 x4 : Vec Ideal S3x32 .f32) (x3 : Vec Ideal S1x32 .f32)
    (mean h : S100000x3.Idx → EReal) (wl wr : S3x32.Idx → EReal) (b : S1x32.Idx → EReal)
    (y : S5000x32.Idx) (i : S100000x32.Idx)
    (h0 : ∀ k : Fin 3, x0 (ix2 (y 0) k) = mean (ix2 (i 0) k)) (h1 : ∀ k : Fin 3, x1 (ix2 (y 0) k) = h (ix2 (i 0) k))
    (h2 : x2 = wl) (h4 : x4 = wr) (h3 : x3 = b) (hq : y 1 = i 1) :
    k0_pay1 (F := Ideal) x0 x1 x2 x4 x3 y = LibSageDense.denseRelu 100000 3 32 mean h wl wr b i := by
  subst h2 h4 h3
  obtain ⟨r, q, rfl⟩ : ∃ (r : Fin 5000) (q : Fin 32), y = ix2 r q := ⟨y 0, y 1, eq_ix2 y⟩
  obtain ⟨p, q', rfl⟩ : ∃ (p : Fin 100000) (q' : Fin 32), i = ix2 p q' := ⟨i 0, i 1, eq_ix2 i⟩
  obtain rfl : q = q' := hq
  rw [pay_apply, LibSageDense.denseRelu_apply]
  exact congrArg (fun z : EReal => max z 0) (LibSageDense.entry_of_rows 100000 3 32 x0 x1 mean h x2 x4 x3 r p q h0 h1)

/-- WHAT POINT t WRITES BACK is block t of the clamped layer of the operands as the region finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x3) hz, View.ld_unit_zero (S := S3x32) hz, View.ld_unit_zero (S := S1x32) hz]
  obtain ⟨e00, e01, e10, e11, e20, e21, e30, e31, e40, e41, e50, e51⟩ := idx_facts t
  funext j
  show k0_pay1 (iblk0 V c 0 t) (iblk0 V c 1 t) (iblk0 V c 2 t) (iblk0 V c 4 t) (iblk0 V c 3 t) j
    = G V c (((cfg0.win 5).blk t).view.emb j)
  refine block_entry (iblk0 V c 0 t) (iblk0 V c 1 t) (iblk0 V c 2 t) (iblk0 V c 4 t) (iblk0 V c 3 t)
    (V c main_v27) (V c main_v13) (V c main_arg2) (V c main_arg4) (V c main_v28) j (((cfg0.win 5).blk t).view.emb j) ?_ ?_ ?_ ?_ ?_ ?_
  · intro k
    show V c main_v27 (((cfg0.win 0).blk t).view.emb (ix2 (j 0) k)) = V c main_v27 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 3 + 1 * k.val = k.val; omega
  · intro k
    show V c main_v13 (((cfg0.win 1).blk t).view.emb (ix2 (j 0) k)) = V c main_v13 (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 3 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 3 + 1 * (y 0).val = (y 0).val; omega
    | ⟨1, _⟩ => show win0_2.index t (1 : Fin 2) * 32 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 3 + 1 * (y 0).val = (y 0).val; omega
    | ⟨1, _⟩ => show win0_4.index t (1 : Fin 2) * 32 + 1 * (y 1).val = (y 1).val; omega
  · funext y
    show V c main_v28 (((cfg0.win 3).blk t).view.emb y) = V c main_v28 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega
  · refine Fin.ext ?_
    show (j 1).val = win0_5.index t (1 : Fin 2) * 32 + 1 * (j 1).val
    omega

/-- An index of the array is in point t's block iff each coordinate is in the block's range on its axis. -/
theorem mem_blk (t : Fin cfg0.N) (i : S100000x32.Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v29).slice (win0_5.rect t)).set ↔ _
  rw [View.set_slice_whole, Rect.mem_set_unit]
  exact Iff.rfl

/-- The twenty row blocks tile the array: row r is in the block of point r / 5000. -/
theorem cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨e00, e01, e10, e11, e20, e21, e30, e31, e40, e41, e50, e51⟩ := idx_facts t
  refine ⟨t, flush0_5 t, ?_⟩
  rw [mem_blk]
  intro a
  have ht : t.val = (i 0).val / 5000 := rfl
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- THE REGION'S OUTPUT ARRAY after the run: the clamped layer of the operands as the region finds them. -/
theorem out_eq (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  Region 1 as one array. A grid point stages 5000 rows of the mean and of the features, the two weight matrices and
  the bias row, and writes back 5000 rows of the layer: entry (r, q) of the written block is the clamped layer's entry of
  the block's own row, so block t of the output is rows 5000 t .. 5000 t + 4999 of ONE array, the clamped layer of the
  whole operands; the twenty blocks tile the output.
-/
import proofs.«146768_j44418551775831_2_alg».proof.Proof.Gen.KernelIdeal.Frame
import proofs.«146768_j44418551775831_2_alg».proof.Proof.LibSageDense
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (r, q): the clamped layer's entry over the block's own rows. -/
theorem pay_apply (x0 x1 : Vec Ideal S5000x32 .bf16) (x2 x4 : Vec Ideal S32x64 .f32) (x3 : Vec Ideal S1x64 .f32)
    (r : Fin 5000) (q : Fin 64) :
    k1_pay1 (F := Ideal) x0 x1 x2 x4 x3 (ix2 r q) = max (LibSageDense.entry 5000 32 64 x0 x1 x2 x4 x3 r q) 0 := by
  have e := LibSageDense.block_apply 32 64 (m := 5000) (φ₁ := .bf16) (φ₂ := .bf16) dot_S5000x32_S32x64_S5000x64_1_0_0_1_n_n rfl none
    x0 x1 (truncf .bf16 x2 bitsLt_bf16_f32) (truncf .bf16 x4 bitsLt_bf16_f32) x3 broadcasts_S1x64_S5000x64 r q
  refine Eq.trans ?_ (congrArg (fun y : EReal => max y (0 : EReal)) e)
  unfold k1_pay1
  simp only [shapeCast_self]
  show max _ (Ideal.ofBits .f32 0x00000000#32) = max _ (0 : EReal)
  rw [Ideal.ofBits_zero_f32]
  rfl

/-- The printed index maps over the grid: the row blocks of the mean and the features move with the output's, the
    weights and the bias stay at block (0, 0), and the output's row block is the point's number. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the output ends at: the clamped layer of the operands as the region finds them. -/
abbrev G (c : Dev nD) : S100000x64.Idx → EReal :=
  LibSageDense.denseRelu 100000 32 64 (V c main_v43) (V c main_v29) (V c main_arg5) (V c main_arg7) (V c main_v44)

/-- The stored block at an index of the block against the clamped layer at an index of the array, once the block's
    rows are the array's rows and the column is the same. -/
theorem block_entry (x0 x1 : Vec Ideal S5000x32 .bf16) (x2 x4 : Vec Ideal S32x64 .f32) (x3 : Vec Ideal S1x64 .f32)
    (mean h : S100000x32.Idx → EReal) (wl wr : S32x64.Idx → EReal) (b : S1x64.Idx → EReal)
    (y : S5000x64.Idx) (i : S100000x64.Idx)
    (h0 : ∀ k : Fin 32, x0 (ix2 (y 0) k) = mean (ix2 (i 0) k)) (h1 : ∀ k : Fin 32, x1 (ix2 (y 0) k) = h (ix2 (i 0) k))
    (h2 : x2 = wl) (h4 : x4 = wr) (h3 : x3 = b) (hq : y 1 = i 1) :
    k1_pay1 (F := Ideal) x0 x1 x2 x4 x3 y = LibSageDense.denseRelu 100000 32 64 mean h wl wr b i := by
  subst h2 h4 h3
  obtain ⟨r, q, rfl⟩ : ∃ (r : Fin 5000) (q : Fin 64), y = ix2 r q := ⟨y 0, y 1, eq_ix2 y⟩
  obtain ⟨p, q', rfl⟩ : ∃ (p : Fin 100000) (q' : Fin 64), i = ix2 p q' := ⟨i 0, i 1, eq_ix2 i⟩
  obtain rfl : q = q' := hq
  rw [pay_apply, LibSageDense.denseRelu_apply]
  exact congrArg (fun z : EReal => max z 0) (LibSageDense.entry_of_rows 100000 32 64 x0 x1 mean h x2 x4 x3 r p q h0 h1)

/-- WHAT POINT t WRITES BACK is block t of the clamped layer of the operands as the region finds them. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x64) hz, View.ld_unit_zero (S := S1x64) hz]
  obtain ⟨e00, e01, e10, e11, e20, e21, e30, e31, e40, e41, e50, e51⟩ := idx_facts t
  funext j
  show k1_pay1 (iblk1 V c 0 t) (iblk1 V c 1 t) (iblk1 V c 2 t) (iblk1 V c 4 t) (iblk1 V c 3 t) j
    = G V c (((cfg1.win 5).blk t).view.emb j)
  refine block_entry (iblk1 V c 0 t) (iblk1 V c 1 t) (iblk1 V c 2 t) (iblk1 V c 4 t) (iblk1 V c 3 t)
    (V c main_v43) (V c main_v29) (V c main_arg5) (V c main_arg7) (V c main_v44) j (((cfg1.win 5).blk t).view.emb j) ?_ ?_ ?_ ?_ ?_ ?_
  · intro k
    show V c main_v43 (((cfg1.win 0).blk t).view.emb (ix2 (j 0) k)) = V c main_v43 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 32 + 1 * k.val = k.val; omega
  · intro k
    show V c main_v29 (((cfg1.win 1).blk t).view.emb (ix2 (j 0) k)) = V c main_v29 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 32 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 32 + 1 * (y 0).val = (y 0).val; omega
    | ⟨1, _⟩ => show win1_2.index t (1 : Fin 2) * 64 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 32 + 1 * (y 0).val = (y 0).val; omega
    | ⟨1, _⟩ => show win1_4.index t (1 : Fin 2) * 64 + 1 * (y 1).val = (y 1).val; omega
  · funext y
    show V c main_v44 (((cfg1.win 3).blk t).view.emb y) = V c main_v44 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · refine Fin.ext ?_
    show (j 1).val = win1_5.index t (1 : Fin 2) * 64 + 1 * (j 1).val
    omega

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- The twenty row blocks tile the array: row r is in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e00, e01, e10, e11, e20, e21, e30, e31, e40, e41, e50, e51⟩ := idx_facts t
  refine ⟨t, flush1_5 t, ?_⟩
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE REGION'S OUTPUT ARRAY after the run: the clamped layer of the operands as the region finds them. -/
theorem out_eq (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  Region 2 as one array. A grid point stages 5000 rows of the mean and of the features, the two weight matrices and
  the bias row, and writes back 5000 rows of the layer: entry (r, q) of the written block is the clamped layer's entry of
  the block's own row, so block t of the output is rows 5000 t .. 5000 t + 4999 of ONE array, the clamped layer of the
  whole operands; the twenty blocks tile the output.
-/
import proofs.«146768_j44418551775831_2_alg».proof.Proof.Gen.KernelIdeal.Frame
import proofs.«146768_j44418551775831_2_alg».proof.Proof.LibSageDense
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored block at (r, q): the clamped layer's entry over the block's own rows. -/
theorem pay_apply (x0 x1 : Vec Ideal S5000x64 .bf16) (x2 x4 : Vec Ideal S64x96 .f32) (x3 : Vec Ideal S1x96 .f32)
    (r : Fin 5000) (q : Fin 96) :
    k2_pay1 (F := Ideal) x0 x1 x2 x4 x3 (ix2 r q) = max (LibSageDense.entry 5000 64 96 x0 x1 x2 x4 x3 r q) 0 := by
  have e := LibSageDense.block_apply 64 96 (m := 5000) (φ₁ := .bf16) (φ₂ := .bf16) dot_S5000x64_S64x96_S5000x96_1_0_0_1_n_n rfl none
    x0 x1 (truncf .bf16 x2 bitsLt_bf16_f32) (truncf .bf16 x4 bitsLt_bf16_f32) x3 broadcasts_S1x96_S5000x96 r q
  refine Eq.trans ?_ (congrArg (fun y : EReal => max y (0 : EReal)) e)
  unfold k2_pay1
  simp only [shapeCast_self]
  show max _ (Ideal.ofBits .f32 0x00000000#32) = max _ (0 : EReal)
  rw [Ideal.ofBits_zero_f32]
  rfl

/-- The printed index maps over the grid: the row blocks of the mean and the features move with the output's, the
    weights and the bias stay at block (0, 0), and the output's row block is the point's number. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The array the output ends at: the clamped layer of the operands as the region finds them. -/
abbrev G (c : Dev nD) : S100000x96.Idx → EReal :=
  LibSageDense.denseRelu 100000 64 96 (V c main_v59) (V c main_v45) (V c main_arg8) (V c main_arg10) (V c main_v60)

/-- The stored block at an index of the block against the clamped layer at an index of the array, once the block's
    rows are the array's rows and the column is the same. -/
theorem block_entry (x0 x1 : Vec Ideal S5000x64 .bf16) (x2 x4 : Vec Ideal S64x96 .f32) (x3 : Vec Ideal S1x96 .f32)
    (mean h : S100000x64.Idx → EReal) (wl wr : S64x96.Idx → EReal) (b : S1x96.Idx → EReal)
    (y : S5000x96.Idx) (i : S100000x96.Idx)
    (h0 : ∀ k : Fin 64, x0 (ix2 (y 0) k) = mean (ix2 (i 0) k)) (h1 : ∀ k : Fin 64, x1 (ix2 (y 0) k) = h (ix2 (i 0) k))
    (h2 : x2 = wl) (h4 : x4 = wr) (h3 : x3 = b) (hq : y 1 = i 1) :
    k2_pay1 (F := Ideal) x0 x1 x2 x4 x3 y = LibSageDense.denseRelu 100000 64 96 mean h wl wr b i := by
  subst h2 h4 h3
  obtain ⟨r, q, rfl⟩ : ∃ (r : Fin 5000) (q : Fin 96), y = ix2 r q := ⟨y 0, y 1, eq_ix2 y⟩
  obtain ⟨p, q', rfl⟩ : ∃ (p : Fin 100000) (q' : Fin 96), i = ix2 p q' := ⟨i 0, i 1, eq_ix2 i⟩
  obtain rfl : q = q' := hq
  rw [pay_apply, LibSageDense.denseRelu_apply]
  exact congrArg (fun z : EReal => max z 0) (LibSageDense.entry_of_rows 100000 64 96 x0 x1 mean h x2 x4 x3 r p q h0 h1)

/-- WHAT POINT t WRITES BACK is block t of the clamped layer of the operands as the region finds them. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x96) hz, View.ld_unit_zero (S := S1x96) hz]
  obtain ⟨e00, e01, e10, e11, e20, e21, e30, e31, e40, e41, e50, e51⟩ := idx_facts t
  funext j
  show k2_pay1 (iblk2 V c 0 t) (iblk2 V c 1 t) (iblk2 V c 2 t) (iblk2 V c 4 t) (iblk2 V c 3 t) j
    = G V c (((cfg2.win 5).blk t).view.emb j)
  refine block_entry (iblk2 V c 0 t) (iblk2 V c 1 t) (iblk2 V c 2 t) (iblk2 V c 4 t) (iblk2 V c 3 t)
    (V c main_v59) (V c main_v45) (V c main_arg8) (V c main_arg10) (V c main_v60) j (((cfg2.win 5).blk t).view.emb j) ?_ ?_ ?_ ?_ ?_ ?_
  · intro k
    show V c main_v59 (((cfg2.win 0).blk t).view.emb (ix2 (j 0) k)) = V c main_v59 (ix2 ((((cfg2.win 5).blk t).view.emb j) 0) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  · intro k
    show V c main_v45 (((cfg2.win 1).blk t).view.emb (ix2 (j 0) k)) = V c main_v45 (ix2 ((((cfg2.win 5).blk t).view.emb j) 0) k)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * k.val = k.val; omega
  · funext y
    show V c main_arg8 (((cfg2.win 2).blk t).view.emb y) = V c main_arg8 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 96 + 1 * (y 1).val = (y 1).val; omega
  · funext y
    show V c main_arg10 (((cfg2.win 4).blk t).view.emb y) = V c main_arg10 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 96 + 1 * (y 1).val = (y 1).val; omega
  · funext y
    show V c main_v60 (((cfg2.win 3).blk t).view.emb y) = V c main_v60 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 96 + 1 * (y 1).val = (y 1).val; omega
  · refine Fin.ext ?_
    show (j 1).val = win2_5.index t (1 : Fin 2) * 96 + 1 * (j 1).val
    omega

/-- An index of the array is in point t's block iff each coordinate is in the block's range on its axis. -/
theorem mem_blk (t : Fin cfg2.N) (i : S100000x96.Idx) :
    i ∈ ((cfg2.win 5).blk t).view.set ↔ ∀ a : Fin 2, win2_5.index t a * S5000x96.size a ≤ (i a).val
      ∧ (i a).val < win2_5.index t a * S5000x96.size a + S5000x96.size a := by
  show i ∈ ((View.whole main_v61).slice (win2_5.rect t)).set ↔ _
  rw [View.set_slice_whole, Rect.mem_set_unit]
  exact Iff.rfl

/-- The twenty row blocks tile the array: row r is in the block of point r / 5000. -/
theorem cover (i : S100000x96.Idx) :
    ∃ t : Fin cfg2.N, (cfg2.win 5).flush t = true ∧ i ∈ ((cfg2.win 5).blk t).view.set := by
  have hi0 : (i 0).val < 100000 := (i 0).isLt
  have hi1 : (i 1).val < 96 := (i 1).isLt
  have hN : cfg2.N = 20 := N_2
  let t : Fin cfg2.N := ⟨(i 0).val / 5000, by rw [hN]; omega⟩
  obtain ⟨e00, e01, e10, e11, e20, e21, e30, e31, e40, e41, e50, e51⟩ := idx_facts t
  refine ⟨t, flush2_5 t, ?_⟩
  rw [mem_blk]
  intro a
  have ht : t.val = (i 0).val / 5000 := rfl
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 96 ≤ (i 1).val ∧ (i 1).val < win2_5.index t (1 : Fin 2) * 96 + 96; omega

/-- THE REGION'S OUTPUT ARRAY after the run: the clamped layer of the operands as the region finds them. -/
theorem out_eq (c : Dev nD) : (dat2 V c).arrAt 5 cfg2.N = G V c :=
  (dat2 V c).arrAt_eq_of_cover 5 (G V c) (fun t _ => flushed_eq V c t) (cover)

end Cert.KernelIdeal.Region2

end
-- ==== Proof.Region3.lean ====
/-
  Region 3 as one array. A grid point stages 5000 rows of the mean and of the features, the layer's two weight matrices
  and bias row, and the head's weight matrix and bias row; it forms the clamped layer of its rows (5000 by 128, never
  written out), multiplies it by the head's weights, adds the head's bias and applies the logistic function. Entry (r, q)
  of the written block is the head of the whole arrays at the block's own row, so block t of the output is rows
  5000 t .. 5000 t + 4999 of ONE array; the twenty blocks tile the output.
-/
import proofs.«146768_j44418551775831_2_alg».proof.Proof.Gen.KernelIdeal.Frame
import proofs.«146768_j44418551775831_2_alg».proof.Proof.LibSageDense
import proofs.«146768_j44418551775831_2_alg».proof.Proof.LibSageLaw
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The logistic function of a product into zero plus a spread bias row, at (r, q). -/
theorem head_block_apply {m K N : Nat} {φ₁ φ₂ : FTy} (D : DotDims ⟨2, ![m, K]⟩ ⟨2, ![K, N]⟩ ⟨2, ![m, N]⟩) (hD : D = DotDims.plain m K N)
    (prec : Option ContractPrecision) (hid : FVec Ideal ⟨2, ![m, K]⟩ φ₁) (wf : FVec Ideal ⟨2, ![K, N]⟩ φ₂)
    (bf : FVec Ideal ⟨2, ![1, N]⟩ .f32) (hb : (⟨2, ![1, N]⟩ : Shape).Broadcasts ⟨2, ![m, N]⟩) (r : Fin m) (q : Fin N) :
    Ideal.logistic (FloatOps.matmul D prec hid wf (constant (F := Ideal) ⟨2, ![m, N]⟩ .f32 0x00000000#32) (ix2 r q)
        + broadcastTo ⟨2, ![m, N]⟩ bf hb (ix2 r q))
      = Ideal.logistic ((∑ j : Fin K, hid (ix2 r j) * wf (ix2 j q)) + bf (ix2 (0 : Fin 1) q)) := by
  subst hD
  rw [LibMatmulNN.matmul_zero_apply, broadcastTo_1b_ab_apply]

/-- The hidden block: the clamped layer of the point's rows. -/
def hid (x0 x1 : Vec Ideal S5000x96 .bf16) (x2 x4 : Vec Ideal S96x128 .f32) (x3 : Vec Ideal S1x128 .f32) : FVec Ideal S5000x128 .bf16 :=
  truncf .bf16 (maximumf (addf (addf
      (matmul (φ₁ := .bf16) dot_S5000x96_S96x128_S5000x128_1_0_0_1_n_n none x0 (truncf .bf16 x2 bitsLt_bf16_f32) (constant S5000x128 .f32 0x00000000#32))
      (matmul (φ₁ := .bf16) dot_S5000x96_S96x128_S5000x128_1_0_0_1_n_n none x1 (truncf .bf16 x4 bitsLt_bf16_f32) (constant S5000x128 .f32 0x00000000#32)))
      (broadcastTo S5000x128 x3 broadcasts_S1x128_S5000x128))
    (broadcast S5000x128 (Scalar.ofBits .f32 0x00000000#32))) bitsLt_bf16_f32

theorem hid_apply (x0 x1 : Vec Ideal S5000x96 .bf16) (x2 x4 : Vec Ideal S96x128 .f32) (x3 : Vec Ideal S1x128 .f32)
    (r : Fin 5000) (j : Fin 128) :
    hid x0 x1 x2 x4 x3 (ix2 r j) = max (LibSageDense.entry 5000 96 128 x0 x1 x2 x4 x3 r j) 0 := by
  have e := LibSageDense.block_apply 96 128 (m := 5000) (φ₁ := .bf16) (φ₂ := .bf16) dot_S5000x96_S96x128_S5000x128_1_0_0_1_n_n rfl none
    x0 x1 (truncf .bf16 x2 bitsLt_bf16_f32) (truncf .bf16 x4 bitsLt_bf16_f32) x3 broadcasts_S1x128_S5000x128 r j
  refine Eq.trans ?_ (congrArg (fun y : EReal => max y (0 : EReal)) e)
  unfold hid
  show max _ (Ideal.ofBits .f32 0x00000000#32) = max _ (0 : EReal)
  rw [Ideal.ofBits_zero_f32]
  rfl

/-- The stored block at (r, q): the head over the block's own rows. -/
theorem pay_apply (x0 x1 : Vec Ideal S5000x96 .bf16) (x2 x4 : Vec Ideal S96x128 .f32) (x3 : Vec Ideal S1x128 .f32)
    (x5 : Vec Ideal S128x4 .f32) (x6 : Vec Ideal S1x4 .f32) (r : Fin 5000) (q : Fin 4) :
    k3_pay1 (F := Ideal) x0 x1 x2 x4 x3 x5 x6 (ix2 r q)
      = Ideal.logistic ((∑ j : Fin 128, max (LibSageDense.entry 5000 96 128 x0 x1 x2 x4 x3 r j) 0 * x5 (ix2 j q)) + x6 (ix2 (0 : Fin 1) q)) := by
  have e := head_block_apply (m := 5000) (K := 128) (N := 4) (φ₁ := .bf16) (φ₂ := .bf16) dot_S5000x128_S128x4_S5000x4_1_0_0_1_n_n rfl none
    (hid x0 x1 x2 x4 x3) (truncf .bf16 x5 bitsLt_bf16_f32) x6 broadcasts_S1x4_S5000x4 r q
  refine Eq.trans ?_ (e.trans ?_)
  · unfold k3_pay1 hid
    simp only [shapeCast_self]
    rfl
  · refine congrArg Ideal.logistic (congrArg (fun z : EReal => z + x6 (ix2 (0 : Fin 1) q)) (Finset.sum_congr rfl fun j _ => ?_))
    exact congrArg (fun z : EReal => z * x5 (ix2 j q)) (hid_apply x0 x1 x2 x4 x3 r j)

/-- The printed index maps over the grid: the row blocks of the mean and the features move with the output's, the
    weights and the biases stay at block (0, 0), and the output's row block is the point's number. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The array the output ends at: the head of the clamped layer of the operands as the region finds them. -/
abbrev G (c : Dev nD) : S100000x4.Idx → EReal :=
  LibSageLaw.head 100000 128 4
    (LibSageDense.denseRelu 100000 96 128 (V c main_v75) (V c main_v61) (V c main_arg11) (V c main_arg13) (V c main_v76))
    (V c main_arg14) (V c main_v77)

/-- The stored block at an index of the block against the head at an index of the array, once the block's rows are the
    array's rows and the column is the same. -/
theorem block_entry (x0 x1 : Vec Ideal S5000x96 .bf16) (x2 x4 : Vec Ideal S96x128 .f32) (x3 : Vec Ideal S1x128 .f32)
    (x5 : Vec Ideal S128x4 .f32) (x6 : Vec Ideal S1x4 .f32)
    (mean h : S100000x96.Idx → EReal) (wl wr : S96x128.Idx → EReal) (b : S1x128.Idx → EReal)
    (wf : S128x4.Idx → EReal) (bf : S1x4.Idx → EReal)
    (y : S5000x4.Idx) (i : S100000x4.Idx)
    (h0 : ∀ k : Fin 96, x0 (ix2 (y 0) k) = mean (ix2 (i 0) k)) (h1 : ∀ k : Fin 96, x1 (ix2 (y 0) k) = h (ix2 (i 0) k))
    (h2 : x2 = wl) (h4 : x4 = wr) (h3 : x3 = b) (h5 : x5 = wf) (h6 : x6 = bf) (hq : y 1 = i 1) :
    k3_pay1 (F := Ideal) x0 x1 x2 x4 x3 x5 x6 y
      = LibSageLaw.head 100000 128 4 (LibSageDense.denseRelu 100000 96 128 mean h wl wr b) wf bf i := by
  subst h2 h4 h3 h5 h6
  obtain ⟨r, q, rfl⟩ : ∃ (r : Fin 5000) (q : Fin 4), y = ix2 r q := ⟨y 0, y 1, eq_ix2 y⟩
  obtain ⟨p, q', rfl⟩ : ∃ (p : Fin 100000) (q' : Fin 4), i = ix2 p q' := ⟨i 0, i 1, eq_ix2 i⟩
  obtain rfl : q = q' := hq
  rw [pay_apply, LibSageLaw.head_apply]
  refine congrArg Ideal.logistic (congrArg (fun z : EReal => z + x6 (ix2 (0 : Fin 1) q)) (Finset.sum_congr rfl fun j _ => ?_))
  rw [LibSageDense.denseRelu_apply]
  exact congrArg (fun z : EReal => max z 0 * x5 (ix2 j q)) (LibSageDense.entry_of_rows 100000 96 128 x0 x1 mean h x2 x4 x3 r p j h0 h1)

/-- WHAT POINT t WRITES BACK is block t of the head of the operands as the region finds them. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S5000x96) hz, View.ld_unit_zero (S := S96x128) hz, View.ld_unit_zero (S := S1x128) hz,
    View.ld_unit_zero (S := S128x4) hz, View.ld_unit_zero (S := S1x4) hz]
  obtain ⟨e00, e01, e10, e11, e20, e21, e30, e31, e40, e41, e50, e51, e60, e61, e70, e71⟩ := idx_facts t
  funext j
  show k3_pay1 (iblk3 V c 0 t) (iblk3 V c 1 t) (iblk3 V c 2 t) (iblk3 V c 4 t) (iblk3 V c 3 t) (iblk3 V c 5 t) (iblk3 V c 6 t) j
    = G V c (((cfg3.win 7).blk t).view.emb j)
  refine block_entry (iblk3 V c 0 t) (iblk3 V c 1 t) (iblk3 V c 2 t) (iblk3 V c 4 t) (iblk3 V c 3 t) (iblk3 V c 5 t) (iblk3 V c 6 t)
    (V c main_v75) (V c main_v61) (V c main_arg11) (V c main_arg13) (V c main_v76) (V c main_arg14) (V c main_v77)
    j (((cfg3.win 7).blk t).view.emb j) ?_ ?_ ?_ ?_ ?_ ?_ ?_ ?_
  · intro k
    show V c main_v75 (((cfg3.win 0).blk t).view.emb (ix2 (j 0) k)) = V c main_v75 (ix2 ((((cfg3.win 7).blk t).view.emb j) 0) k)
    refine congrArg _ (funext fun a => Fin.ext ?_)
    match a with
    | ⟨0, _⟩ => show win3_0.index t (0 : Fin 2) * 5000 + 1 * (j 0).val = win3_7.index t (0 : Fin 2) * 5000 + 1 * (j 0).val; omega
    | ⟨1, _⟩ => show win3_0.index t (1 : Fin 2) * 96 + 1 * k.val = k.val; omega
  · intro k
    show V c main_v61 (((cfg3.win 1).blk t).view.emb (ix2 (j 0) k)) = V c main_v61 (ix2 ((((cfg3.win 7).blk t).view.emb j) 0) k)
    refine congrArg _ (funext fun a => Fin.ext ?_)
    match a with
    | ⟨0, _⟩ => show win3_1.index t (0 : Fin 2) * 5000 + 1 * (j 0).val = win3_7.index t (0 : Fin 2) * 5000 + 1 * (j 0).val; omega
    | ⟨1, _⟩ => show win3_1.index t (1 : Fin 2) * 96 + 1 * k.val = k.val; omega
  · funext y
    show V c main_arg11 (((cfg3.win 2).blk t).view.emb y) = V c main_arg11 y
    refine congrArg _ (funext fun a => Fin.ext ?_)
    match a with
    | ⟨0, _⟩ => show win3_2.index t (0 : Fin 2) * 96 + 1 * (y 0).val = (y 0).val; omega
    | ⟨1, _⟩ => show win3_2.index t (1 : Fin 2) * 128 + 1 * (y 1).val = (y 1).val; omega
  · funext y
    show V c main_arg13 (((cfg3.win 4).blk t).view.emb y) = V c main_arg13 y
    refine congrArg _ (funext fun a => Fin.ext ?_)
    match a with
    | ⟨0, _⟩ => show win3_4.index t (0 : Fin 2) * 96 + 1 * (y 0).val = (y 0).val; omega
    | ⟨1, _⟩ => show win3_4.index t (1 : Fin 2) * 128 + 1 * (y 1).val = (y 1).val; omega
  · funext y
    show V c main_v76 (((cfg3.win 3).blk t).view.emb y) = V c main_v76 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · funext y
    show V c main_arg14 (((cfg3.win 5).blk t).view.emb y) = V c main_arg14 y
    refine congrArg _ (funext fun a => Fin.ext ?_)
    match a with
    | ⟨0, _⟩ => show win3_5.index t (0 : Fin 2) * 128 + 1 * (y 0).val = (y 0).val; omega
    | ⟨1, _⟩ => show win3_5.index t (1 : Fin 2) * 4 + 1 * (y 1).val = (y 1).val; omega
  · funext y
    show V c main_v77 (((cfg3.win 6).blk t).view.emb y) = V c main_v77 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 4 + 1 * (y 1).val = (y 1).val; omega
  · refine Fin.ext ?_
    show (j 1).val = win3_7.index t (1 : Fin 2) * 4 + 1 * (j 1).val
    omega

/-- An index of the array is in point t's block iff each coordinate is in the block's range on its axis. -/
theorem mem_blk (t : Fin cfg3.N) (i : S100000x4.Idx) :
    i ∈ ((cfg3.win 7).blk t).view.set ↔ ∀ a : Fin 2, win3_7.index t a * S5000x4.size a ≤ (i a).val
      ∧ (i a).val < win3_7.index t a * S5000x4.size a + S5000x4.size a := by
  show i ∈ ((View.whole main_v78).slice (win3_7.rect t)).set ↔ _
  rw [View.set_slice_whole, Rect.mem_set_unit]
  exact Iff.rfl

/-- The twenty row blocks tile the array: row r is in the block of point r / 5000. -/
theorem cover (i : S100000x4.Idx) :
    ∃ t : Fin cfg3.N, (cfg3.win 7).flush t = true ∧ i ∈ ((cfg3.win 7).blk t).view.set := by
  have hi0 : (i 0).val < 100000 := (i 0).isLt
  have hi1 : (i 1).val < 4 := (i 1).isLt
  have hN : cfg3.N = 20 := N_3
  let t : Fin cfg3.N := ⟨(i 0).val / 5000, by rw [hN]; omega⟩
  obtain ⟨e00, e01, e10, e11, e20, e21, e30, e31, e40, e41, e50, e51, e60, e61, e70, e71⟩ := idx_facts t
  refine ⟨t, flush3_7 t, ?_⟩
  rw [mem_blk]
  intro a
  have ht : t.val = (i 0).val / 5000 := rfl
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 4 ≤ (i 1).val ∧ (i 1).val < win3_7.index t (1 : Fin 2) * 4 + 4; omega

/-- THE REGION'S OUTPUT ARRAY after the run: the head of the operands as the region finds them. -/
theorem out_eq (c : Dev nD) : (dat3 V c).arrAt 7 cfg3.N = G V c :=
  (dat3 V c).arrAt_eq_of_cover 7 (G V c) (fun t _ => flushed_eq V c t) (cover)

end Cert.KernelIdeal.Region3

end
-- ==== Proof.Value.lean ====
/-
  The idealized kernel's result as a function of its arguments. The last boundary's contents at the result buffer are
  what region 3's grid points wrote back: the head of the operands the region found. Those are what the fourth stretch
  left (the mean of the features region 2 wrote, the reshaped biases) and what earlier segments left untouched; and so
  on back to the launch. Walking the fold back, layer by layer, gives the features after each layer as the closed terms
  of the arguments, and the result as the head of the last.
-/
import proofs.«146768_j44418551775831_2_alg».proof.Proof.KernelRun
import proofs.«146768_j44418551775831_2_alg».proof.Proof.Fold
import proofs.«146768_j44418551775831_2_alg».proof.Proof.KNet
import proofs.«146768_j44418551775831_2_alg».proof.Proof.Region0
import proofs.«146768_j44418551775831_2_alg».proof.Proof.Region1
import proofs.«146768_j44418551775831_2_alg».proof.Proof.Region2
import proofs.«146768_j44418551775831_2_alg».proof.Proof.Region3

set_option maxRecDepth 16384

noncomputable section

namespace Cert.KernelIdeal.Value

open Cert.KernelIdeal Cert.KernelIdeal.Gen Cert.KernelIdeal.Fold Idealize.ShloMosaic Idealize.ShloMosaic.TcCoe Idealize.SL.Sem

variable (m : (ℓ : Loc nD τ sig) → Buf (Elt Ideal) ℓ) (ρ : Dev nD → PrngReg)

/-- After region 0 the features buffer holds layer 0's features of the arguments. -/
theorem w2_v29 (c : Dev nD) : W2 m ρ c (Proc.devRef .tc main_v29) = Net.K1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Region0.out_eq (V1 m ρ) c).trans ?_)
  show LibSageDense.denseRelu 100000 3 32 (W1 m ρ c (Proc.devRef .tc main_v27)) (W1 m ρ c (Proc.devRef .tc main_v13)) (W1 m ρ c (Proc.devRef .tc main_arg2)) (W1 m ρ c (Proc.devRef .tc main_arg4)) (W1 m ρ c (Proc.devRef .tc main_v28)) = _
  rw [s1_v27, s1_v13, s1_v28, carry_arg2_1_0, carry_arg4_1_0]
  rfl

/-- After region 1: layer 1's features. -/
theorem w4_v45 (c : Dev nD) : W4 m ρ c (Proc.devRef .tc main_v45) = Net.K2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Region1.out_eq (V3 m ρ) c).trans ?_)
  show LibSageDense.denseRelu 100000 32 64 (W3 m ρ c (Proc.devRef .tc main_v43)) (W3 m ρ c (Proc.devRef .tc main_v29)) (W3 m ρ c (Proc.devRef .tc main_arg5)) (W3 m ρ c (Proc.devRef .tc main_arg7)) (W3 m ρ c (Proc.devRef .tc main_v44)) = _
  rw [s3_v43, s3_v44, carry_v29_3_2, carry_arg5_3_0, carry_arg7_3_0, carry_v1_2_1, carry_v3_2_1, carry_v12_2_1, carry_arg6_2_0,
    w2_v29, s1_v1, s1_v3, s1_v12]
  rfl

/-- After region 2: layer 2's features. -/
theorem w6_v61 (c : Dev nD) : W6 m ρ c (Proc.devRef .tc main_v61) = Net.K3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Region2.out_eq (V5 m ρ) c).trans ?_)
  show LibSageDense.denseRelu 100000 64 96 (W5 m ρ c (Proc.devRef .tc main_v59)) (W5 m ρ c (Proc.devRef .tc main_v45)) (W5 m ρ c (Proc.devRef .tc main_arg8)) (W5 m ρ c (Proc.devRef .tc main_arg10)) (W5 m ρ c (Proc.devRef .tc main_v60)) = _
  rw [s5_v59, s5_v60, carry_v45_5_4, carry_arg8_5_0, carry_arg10_5_0, carry_v1_4_1, carry_v3_4_1, carry_v12_4_1, carry_arg9_4_0,
    w4_v45, s1_v1, s1_v3, s1_v12]
  rfl

/-- After region 3: the result. -/
theorem w8_v78 (c : Dev nD) : W8 m ρ c (Proc.devRef .tc main_v78) = Net.KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 7).trans ((Region3.out_eq (V7 m ρ) c).trans ?_)
  show LibSageLaw.head 100000 128 4 (LibSageDense.denseRelu 100000 96 128 (W7 m ρ c (Proc.devRef .tc main_v75)) (W7 m ρ c (Proc.devRef .tc main_v61)) (W7 m ρ c (Proc.devRef .tc main_arg11)) (W7 m ρ c (Proc.devRef .tc main_arg13)) (W7 m ρ c (Proc.devRef .tc main_v76)))
    (W7 m ρ c (Proc.devRef .tc main_arg14)) (W7 m ρ c (Proc.devRef .tc main_v77)) = _
  rw [s7_v75, s7_v76, s7_v77, carry_v61_7_6, carry_arg11_7_0, carry_arg13_7_0, carry_arg14_7_0, carry_v1_6_1, carry_v3_6_1, carry_v12_6_1,
    carry_arg12_6_0, carry_arg15_6_0, w6_v61, s1_v1, s1_v3, s1_v12]
  rfl

/-- THE KERNEL'S RUN: every weakly fair execution terminates, nothing faulting, with the result at the closed term of
    the arguments and the arguments as launched. -/
theorem run : θ_run defs (onTc (τ := τ) (main (F := Ideal))) ⟨m, fun _ => 0, ρ⟩ (fun r => ∀ c : Dev nD,
      r.2.mem ((c.tc : Thread nD τ).loc main_v78) = Net.KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w8_v78 m ρ c), (h c).2⟩) (run_result m ρ)

end Cert.KernelIdeal.Value

end
-- ==== Proof.Bridge.lean ====
/-
  The reference's run term is the kernel's result term. The reference's program is, layer after layer, the clamped dense
  layer of the features' mean over incoming edges and the features, then the logistic head; read one operation at a
  time each layer's stage is the reference's arrangement of the layer applied to the previous stage. That arrangement
  is the kernel's (the count of incoming edges clamped at one is a positive real, so dividing by it is multiplying by
  its reciprocal; the three summands regroup; format changes are the identity), and the head spelled with exp is the
  logistic function. So the two composed terms are one function of the sixteen arguments. No argument need be finite.
-/
import proofs.«146768_j44418551775831_2_alg».proof.Proof.Gen.ReferenceIdeal.Read
import proofs.«146768_j44418551775831_2_alg».proof.Proof.KNet
import proofs.«146768_j44418551775831_2_alg».proof.Proof.LibSageLaw
import proofs.«146768_j44418551775831_2_alg».proof.Proof.LibMeanScale

set_option maxRecDepth 16384

noncomputable section

namespace Cert.Bridge

open Cert.ReferenceIdeal Cert.ReferenceIdeal.Gen Idealize.ShloMosaic

/-- Row 0 of the edge list, row 1, and the two as index columns, in the reference's spelling. -/
def rsrc (x1 : IVec S2x1600000 32) : IVec S1600000 32 :=
  shapeCast _ (extractStridedSlice S1x1600000 ![0, 0] x1 slices_S2x1600000_S1x1600000_0_0) shapeCasts_S1x1600000_S1600000
def rdst (x1 : IVec S2x1600000 32) : IVec S1600000 32 :=
  shapeCast _ (extractStridedSlice S1x1600000 ![1, 0] x1 slices_S2x1600000_S1x1600000_1_0) shapeCasts_S1x1600000_S1600000
def rsrcI (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
def rdstI (d : IVec S1600000 32) : IVec S1600000x1 32 :=
  broadcastInDim S1600000x1 ![0] bcast_S1600000_S1600000x1_0 d
/-- The incoming-edge count clamped below at one. -/
def rcnt (d : IVec S1600000 32) : FVec Ideal S100000 .f32 :=
  maximumf (Host.scatterAdd scatter_S100000_S1600000x1_S1600000_n_0_0_1
      (broadcastInDim S100000 ![] bcast_S_S100000 (constant S_ .f32 0x00000000#32)) (rdstI d)
      (broadcastInDim S1600000 ![] bcast_S_S1600000 (constant S_ .f32 0x3F800000#32)))
    (broadcastInDim S100000 ![] bcast_S_S100000 (constant S_ .f32 0x3F800000#32))

/-- The clamped count is a positive real at every node. -/
theorem rcnt_pos (d : IVec S1600000 32) (i : S100000.Idx) : ∃ y : ℝ, 0 < y ∧ rcnt d i = (y : EReal) :=
  LibMeanScale.count_pos scatter_S100000_S1600000x1_S1600000_n_0_0_1 _ _ (rdstI d) _
    (fun i => LibSageLaw.spread_zero bcast_S_S100000 i) (fun j => LibSageLaw.spread_one bcast_S_S1600000 j) (fun i => LibSageLaw.spread_one bcast_S_S100000 i) i

/-- The reference's layer 0 of a feature array. -/
def refLayer0 (h : FVec Ideal S100000x3 .f32) (s d : IVec S1600000 32) (wl : FVec Ideal S3x32 .f32) (b : FVec Ideal S32 .f32)
    (wr : FVec Ideal S3x32 .f32) : FVec Ideal S100000x32 .f32 :=
  maximumf (addf (addf (Host.dotGeneral dot_S100000x3_S3x32_S100000x32_1_0_0_1_n_n none
      (Host.divf (Host.scatterAdd scatter_S100000x3_S1600000x1_S1600000x3_1_0_0_1
          (broadcastInDim S100000x3 ![] bcast_S_S100000x3 (constant S_ .f32 0x00000000#32)) (rdstI d)
          (Host.gather gather_S100000x3_S1600000x1_S1600000x3_1_0_n_n_0_1_13 h (rsrcI s)))
        (broadcastInDim S100000x3 ![0, 1] bcast_S100000x1_S100000x3_0_1 (broadcastInDim S100000x1 ![0] bcast_S100000_S100000x1_0 (rcnt d)))) wl)
      (broadcastInDim S100000x32 ![0, 1] bcast_S1x32_S100000x32_0_1 (broadcastInDim S1x32 ![1] bcast_S32_S1x32_1 b)))
    (Host.dotGeneral dot_S100000x3_S3x32_S100000x32_1_0_0_1_n_n none h wr))
    (broadcastInDim S100000x32 ![] bcast_S_S100000x32 (constant S_ .f32 0x00000000#32))

/-- Layer 0: the reference's arrangement is the kernel's, over any feature array. -/
theorem lay0 (h : FVec Ideal S100000x3 .f32) (x1 : IVec S2x1600000 32) (wl : FVec Ideal S3x32 .f32) (b : FVec Ideal S32 .f32)
    (wr : FVec Ideal S3x32 .f32) :
    refLayer0 h (rsrc x1) (rdst x1) wl b wr
      = LibSageDense.denseRelu 100000 3 32
          (Cert.KernelIdeal.Net.mean0 h (Cert.KernelIdeal.Net.src x1) (Cert.KernelIdeal.Net.dst x1) (Cert.KernelIdeal.Net.inv (Cert.KernelIdeal.Net.dst x1))) h wl wr
          (shapeCast _ b Cert.KernelIdeal.Gen.shapeCasts_S32_S1x32) := by
  refine Eq.symm (Eq.trans ?_ (LibSageLaw.layer_eq 100000 3 32
    gather_S100000x3_S1600000x1_S1600000x3_1_0_n_n_0_1_13 scatter_S100000x3_S1600000x1_S1600000x3_1_0_0_1
    dot_S100000x3_S3x32_S100000x32_1_0_0_1_n_n rfl none h
    (broadcastInDim S100000x3 ![] bcast_S_S100000x3 (constant S_ .f32 0x00000000#32)) (rdstI (rdst x1)) (rsrcI (rsrc x1))
    (broadcastInDim S100000 ![] bcast_S_S100000 (constant S_ .f32 0x3F800000#32)) (rcnt (rdst x1)) wl wr b
    Cert.KernelIdeal.Gen.bitsLt_bf16_f32 Cert.KernelIdeal.Gen.shapeCasts_S100000_S100000x1 bcast_S100000_S100000x1_0 bcast_S100000x1_S100000x3_0_1
    Cert.KernelIdeal.Gen.shapeCasts_S32_S1x32 bcast_S32_S1x32_1 bcast_S1x32_S100000x32_0_1
    (broadcastInDim S100000x32 ![] bcast_S_S100000x32 (constant S_ .f32 0x00000000#32))
    (fun i => LibSageLaw.spread_zero bcast_S_S100000x32 i) (fun i => LibSageLaw.spread_one bcast_S_S100000 i) (rcnt_pos (rdst x1))))
  rfl

/-- The reference's layer 1 of a feature array. -/
def refLayer1 (h : FVec Ideal S100000x32 .f32) (s d : IVec S1600000 32) (wl : FVec Ideal S32x64 .f32) (b : FVec Ideal S64 .f32)
    (wr : FVec Ideal S32x64 .f32) : FVec Ideal S100000x64 .f32 :=
  maximumf (addf (addf (Host.dotGeneral dot_S100000x32_S32x64_S100000x64_1_0_0_1_n_n none
      (Host.divf (Host.scatterAdd scatter_S100000x32_S1600000x1_S1600000x32_1_0_0_1
          (broadcastInDim S100000x32 ![] bcast_S_S100000x32 (constant S_ .f32 0x00000000#32)) (rdstI d)
          (Host.gather gather_S100000x32_S1600000x1_S1600000x32_1_0_n_n_0_1_132 h (rsrcI s)))
        (broadcastInDim S100000x32 ![0, 1] bcast_S100000x1_S100000x32_0_1 (broadcastInDim S100000x1 ![0] bcast_S100000_S100000x1_0 (rcnt d)))) wl)
      (broadcastInDim S100000x64 ![0, 1] bcast_S1x64_S100000x64_0_1 (broadcastInDim S1x64 ![1] bcast_S64_S1x64_1 b)))
    (Host.dotGeneral dot_S100000x32_S32x64_S100000x64_1_0_0_1_n_n none h wr))
    (broadcastInDim S100000x64 ![] bcast_S_S100000x64 (constant S_ .f32 0x00000000#32))

/-- Layer 1: the reference's arrangement is the kernel's, over any feature array. -/
theorem lay1 (h : FVec Ideal S100000x32 .f32) (x1 : IVec S2x1600000 32) (wl : FVec Ideal S32x64 .f32) (b : FVec Ideal S64 .f32)
    (wr : FVec Ideal S32x64 .f32) :
    refLayer1 h (rsrc x1) (rdst x1) wl b wr
      = LibSageDense.denseRelu 100000 32 64
          (Cert.KernelIdeal.Net.mean1 h (Cert.KernelIdeal.Net.src x1) (Cert.KernelIdeal.Net.dst x1) (Cert.KernelIdeal.Net.inv (Cert.KernelIdeal.Net.dst x1))) h wl wr
          (shapeCast _ b Cert.KernelIdeal.Gen.shapeCasts_S64_S1x64) := by
  refine Eq.symm (Eq.trans ?_ (LibSageLaw.layer_eq 100000 32 64
    gather_S100000x32_S1600000x1_S1600000x32_1_0_n_n_0_1_132 scatter_S100000x32_S1600000x1_S1600000x32_1_0_0_1
    dot_S100000x32_S32x64_S100000x64_1_0_0_1_n_n rfl none h
    (broadcastInDim S100000x32 ![] bcast_S_S100000x32 (constant S_ .f32 0x00000000#32)) (rdstI (rdst x1)) (rsrcI (rsrc x1))
    (broadcastInDim S100000 ![] bcast_S_S100000 (constant S_ .f32 0x3F800000#32)) (rcnt (rdst x1)) wl wr b
    Cert.KernelIdeal.Gen.bitsLt_bf16_f32 Cert.KernelIdeal.Gen.shapeCasts_S100000_S100000x1 bcast_S100000_S100000x1_0 bcast_S100000x1_S100000x32_0_1
    Cert.KernelIdeal.Gen.shapeCasts_S64_S1x64 bcast_S64_S1x64_1 bcast_S1x64_S100000x64_0_1
    (broadcastInDim S100000x64 ![] bcast_S_S100000x64 (constant S_ .f32 0x00000000#32))
    (fun i => LibSageLaw.spread_zero bcast_S_S100000x64 i) (fun i => LibSageLaw.spread_one bcast_S_S100000 i) (rcnt_pos (rdst x1))))
  rfl

/-- The reference's layer 2 of a feature array. -/
def refLayer2 (h : FVec Ideal S100000x64 .f32) (s d : IVec S1600000 32) (wl : FVec Ideal S64x96 .f32) (b : FVec Ideal S96 .f32)
    (wr : FVec Ideal S64x96 .f32) : FVec Ideal S100000x96 .f32 :=
  maximumf (addf (addf (Host.dotGeneral dot_S100000x64_S64x96_S100000x96_1_0_0_1_n_n none
      (Host.divf (Host.scatterAdd scatter_S100000x64_S1600000x1_S1600000x64_1_0_0_1
          (broadcastInDim S100000x64 ![] bcast_S_S100000x64 (constant S_ .f32 0x00000000#32)) (rdstI d)
          (Host.gather gather_S100000x64_S1600000x1_S1600000x64_1_0_n_n_0_1_164 h (rsrcI s)))
        (broadcastInDim S100000x64 ![0, 1] bcast_S100000x1_S100000x64_0_1 (broadcastInDim S100000x1 ![0] bcast_S100000_S100000x1_0 (rcnt d)))) wl)
      (broadcastInDim S100000x96 ![0, 1] bcast_S1x96_S100000x96_0_1 (broadcastInDim S1x96 ![1] bcast_S96_S1x96_1 b)))
    (Host.dotGeneral dot_S100000x64_S64x96_S100000x96_1_0_0_1_n_n none h wr))
    (broadcastInDim S100000x96 ![] bcast_S_S100000x96 (constant S_ .f32 0x00000000#32))

/-- Layer 2: the reference's arrangement is the kernel's, over any feature array. -/
theorem lay2 (h : FVec Ideal S100000x64 .f32) (x1 : IVec S2x1600000 32) (wl : FVec Ideal S64x96 .f32) (b : FVec Ideal S96 .f32)
    (wr : FVec Ideal S64x96 .f32) :
    refLayer2 h (rsrc x1) (rdst x1) wl b wr
      = LibSageDense.denseRelu 100000 64 96
          (Cert.KernelIdeal.Net.mean2 h (Cert.KernelIdeal.Net.src x1) (Cert.KernelIdeal.Net.dst x1) (Cert.KernelIdeal.Net.inv (Cert.KernelIdeal.Net.dst x1))) h wl wr
          (shapeCast _ b Cert.KernelIdeal.Gen.shapeCasts_S96_S1x96) := by
  refine Eq.symm (Eq.trans ?_ (LibSageLaw.layer_eq 100000 64 96
    gather_S100000x64_S1600000x1_S1600000x64_1_0_n_n_0_1_164 scatter_S100000x64_S1600000x1_S1600000x64_1_0_0_1
    dot_S100000x64_S64x96_S100000x96_1_0_0_1_n_n rfl none h
    (broadcastInDim S100000x64 ![] bcast_S_S100000x64 (constant S_ .f32 0x00000000#32)) (rdstI (rdst x1)) (rsrcI (rsrc x1))
    (broadcastInDim S100000 ![] bcast_S_S100000 (constant S_ .f32 0x3F800000#32)) (rcnt (rdst x1)) wl wr b
    Cert.KernelIdeal.Gen.bitsLt_bf16_f32 Cert.KernelIdeal.Gen.shapeCasts_S100000_S100000x1 bcast_S100000_S100000x1_0 bcast_S100000x1_S100000x64_0_1
    Cert.KernelIdeal.Gen.shapeCasts_S96_S1x96 bcast_S96_S1x96_1 bcast_S1x96_S100000x96_0_1
    (broadcastInDim S100000x96 ![] bcast_S_S100000x96 (constant S_ .f32 0x00000000#32))
    (fun i => LibSageLaw.spread_zero bcast_S_S100000x96 i) (fun i => LibSageLaw.spread_one bcast_S_S100000 i) (rcnt_pos (rdst x1))))
  rfl

/-- The reference's layer 3 of a feature array. -/
def refLayer3 (h : FVec Ideal S100000x96 .f32) (s d : IVec S1600000 32) (wl : FVec Ideal S96x128 .f32) (b : FVec Ideal S128 .f32)
    (wr : FVec Ideal S96x128 .f32) : FVec Ideal S100000x128 .f32 :=
  maximumf (addf (addf (Host.dotGeneral dot_S100000x96_S96x128_S100000x128_1_0_0_1_n_n none
      (Host.divf (Host.scatterAdd scatter_S100000x96_S1600000x1_S1600000x96_1_0_0_1
          (broadcastInDim S100000x96 ![] bcast_S_S100000x96 (constant S_ .f32 0x00000000#32)) (rdstI d)
          (Host.gather gather_S100000x96_S1600000x1_S1600000x96_1_0_n_n_0_1_196 h (rsrcI s)))
        (broadcastInDim S100000x96 ![0, 1] bcast_S100000x1_S100000x96_0_1 (broadcastInDim S100000x1 ![0] bcast_S100000_S100000x1_0 (rcnt d)))) wl)
      (broadcastInDim S100000x128 ![0, 1] bcast_S1x128_S100000x128_0_1 (broadcastInDim S1x128 ![1] bcast_S128_S1x128_1 b)))
    (Host.dotGeneral dot_S100000x96_S96x128_S100000x128_1_0_0_1_n_n none h wr))
    (broadcastInDim S100000x128 ![] bcast_S_S100000x128 (constant S_ .f32 0x00000000#32))

/-- Layer 3: the reference's arrangement is the kernel's, over any feature array. -/
theorem lay3 (h : FVec Ideal S100000x96 .f32) (x1 : IVec S2x1600000 32) (wl : FVec Ideal S96x128 .f32) (b : FVec Ideal S128 .f32)
    (wr : FVec Ideal S96x128 .f32) :
    refLayer3 h (rsrc x1) (rdst x1) wl b wr
      = LibSageDense.denseRelu 100000 96 128
          (Cert.KernelIdeal.Net.mean3 h (Cert.KernelIdeal.Net.src x1) (Cert.KernelIdeal.Net.dst x1) (Cert.KernelIdeal.Net.inv (Cert.KernelIdeal.Net.dst x1))) h wl wr
          (shapeCast _ b Cert.KernelIdeal.Gen.shapeCasts_S128_S1x128) := by
  refine Eq.symm (Eq.trans ?_ (LibSageLaw.layer_eq 100000 96 128
    gather_S100000x96_S1600000x1_S1600000x96_1_0_n_n_0_1_196 scatter_S100000x96_S1600000x1_S1600000x96_1_0_0_1
    dot_S100000x96_S96x128_S100000x128_1_0_0_1_n_n rfl none h
    (broadcastInDim S100000x96 ![] bcast_S_S100000x96 (constant S_ .f32 0x00000000#32)) (rdstI (rdst x1)) (rsrcI (rsrc x1))
    (broadcastInDim S100000 ![] bcast_S_S100000 (constant S_ .f32 0x3F800000#32)) (rcnt (rdst x1)) wl wr b
    Cert.KernelIdeal.Gen.bitsLt_bf16_f32 Cert.KernelIdeal.Gen.shapeCasts_S100000_S100000x1 bcast_S100000_S100000x1_0 bcast_S100000x1_S100000x96_0_1
    Cert.KernelIdeal.Gen.shapeCasts_S128_S1x128 bcast_S128_S1x128_1 bcast_S1x128_S100000x128_0_1
    (broadcastInDim S100000x128 ![] bcast_S_S100000x128 (constant S_ .f32 0x00000000#32))
    (fun i => LibSageLaw.spread_zero bcast_S_S100000x128 i) (fun i => LibSageLaw.spread_one bcast_S_S100000 i) (rcnt_pos (rdst x1))))
  rfl

/-- The reference's head of a feature array. -/
def refHead (h : FVec Ideal S100000x128 .f32) (wf : FVec Ideal S128x4 .f32) (bf : FVec Ideal S4 .f32) : FVec Ideal S100000x4 .f32 :=
  Host.divf (broadcastInDim S100000x4 ![] bcast_S_S100000x4 (constant S_ .f32 0x3F800000#32))
    (addf (broadcastInDim S100000x4 ![] bcast_S_S100000x4 (constant S_ .f32 0x3F800000#32))
      (Host.exp (Host.negf (addf (Host.dotGeneral dot_S100000x128_S128x4_S100000x4_1_0_0_1_n_n none h wf)
        (broadcastInDim S100000x4 ![0, 1] bcast_S1x4_S100000x4_0_1 (broadcastInDim S1x4 ![1] bcast_S4_S1x4_1 bf))))))

/-- The head spelled with exp is the logistic head. -/
theorem headL (h : FVec Ideal S100000x128 .f32) (wf : FVec Ideal S128x4 .f32) (bf : FVec Ideal S4 .f32) :
    refHead h wf bf = LibSageLaw.head 100000 128 4 h wf (shapeCast _ bf Cert.KernelIdeal.Gen.shapeCasts_S4_S1x4) :=
  (LibSageLaw.head_eq 100000 128 4 dot_S100000x128_S128x4_S100000x4_1_0_0_1_n_n rfl none h wf bf Cert.KernelIdeal.Gen.shapeCasts_S4_S1x4
    bcast_S4_S1x4_1 bcast_S1x4_S100000x4_0_1 _ _ (fun i => LibSageLaw.spread_one bcast_S_S100000x4 i) (fun i => LibSageLaw.spread_one bcast_S_S100000x4 i)).symm

/-! ## The reference's stages, one layer at a time -/

theorem r1 (x0 : FVec Ideal S100000x3 .f32) (x1 : IVec S2x1600000 32) (x2 : FVec Ideal S3x32 .f32) (x3 : FVec Ideal S32 .f32) (x4 : FVec Ideal S3x32 .f32) :
    Read.val_main_v29 (F := Ideal) x0 x1 x2 x3 x4 = refLayer0 x0 (rsrc x1) (rdst x1) x2 x3 x4 := rfl
theorem r2 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) :
    Read.val_main_v55 (F := Ideal) x0 x1 x2 x3 x4 x5 x6 x7 = refLayer1 (Read.val_main_v29 (F := Ideal) x0 x1 x2 x3 x4) (rsrc x1) (rdst x1) x5 x6 x7 := rfl
theorem r3 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) :
    Read.val_main_v81 (F := Ideal) x0 x1 x2 x3 x4 x5 x6 x7 x8 x9 x10 = refLayer2 (Read.val_main_v55 (F := Ideal) x0 x1 x2 x3 x4 x5 x6 x7) (rsrc x1) (rdst x1) x8 x9 x10 := rfl
theorem r4 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) (x11 : FVec Ideal S96x128 .f32) (x12 : FVec Ideal S128 .f32) (x13 : FVec Ideal S96x128 .f32) :
    Read.val_main_v107 (F := Ideal) x0 x1 x2 x3 x4 x5 x6 x7 x8 x9 x10 x11 x12 x13 = refLayer3 (Read.val_main_v81 (F := Ideal) x0 x1 x2 x3 x4 x5 x6 x7 x8 x9 x10) (rsrc x1) (rdst x1) x11 x12 x13 := rfl
theorem r5 (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) (x11 : FVec Ideal S96x128 .f32) (x12 : FVec Ideal S128 .f32) (x13 : FVec Ideal S96x128 .f32) (x14 : FVec Ideal S128x4 .f32) (x15 : FVec Ideal S4 .f32) :
    Read.val_main_v117 (F := Ideal) x0 x1 x2 x3 x4 x5 x6 x7 x8 x9 x10 x11 x12 x13 x14 x15 = refHead (Read.val_main_v107 (F := Ideal) x0 x1 x2 x3 x4 x5 x6 x7 x8 x9 x10 x11 x12 x13) x14 x15 := rfl

/-- THE TWO RESULT TERMS ARE ONE FUNCTION of the sixteen arguments. -/
theorem result_eq (x0 : FVec Ideal S100000x3 .f32) (x1 : IVec S2x1600000 32) (x2 : FVec Ideal S3x32 .f32) (x3 : FVec Ideal S32 .f32) (x4 : FVec Ideal S3x32 .f32) (x5 : FVec Ideal S32x64 .f32) (x6 : FVec Ideal S64 .f32) (x7 : FVec Ideal S32x64 .f32) (x8 : FVec Ideal S64x96 .f32) (x9 : FVec Ideal S96 .f32) (x10 : FVec Ideal S64x96 .f32) (x11 : FVec Ideal S96x128 .f32) (x12 : FVec Ideal S128 .f32) (x13 : FVec Ideal S96x128 .f32) (x14 : FVec Ideal S128x4 .f32) (x15 : FVec Ideal S4 .f32) :
    Read.val_main_v117 (F := Ideal) x0 x1 x2 x3 x4 x5 x6 x7 x8 x9 x10 x11 x12 x13 x14 x15 = Cert.KernelIdeal.Net.KOut x0 x1 x2 x3 x4 x5 x6 x7 x8 x9 x10 x11 x12 x13 x14 x15 := by
  rw [r5, r4, r3, r2, r1, lay0, lay1, lay2, lay3, headL]
  rfl

end Cert.Bridge

end
-- ==== Proof.lean ====
/-
  A four-layer graph network on 100000 nodes and 1600000 edges, computed two ways, is one function of its sixteen inputs
  on the extended reals.

  Each layer takes the node features h, gathers the rows named by the edges' sources, adds every gathered row into the
  row named by the edge's destination, divides by the number of incoming edges clamped below at one, and forms
  max(mean · Wl + h · Wr + b, 0); the last layer's features go through an affine map and the logistic function.
  * The kernel computes the clamped count once and multiplies every aggregate by its reciprocal; each layer's dense part
    runs as a grid of twenty row blocks of 5000 nodes, every block two products into zero accumulators, the bias row
    last, the clamp; the last grid also applies the head to its block. Features travel between layers in a narrower
    float format.
  * The reference divides every aggregate by the clamped count, adds the bias between the two products, and spells the
    logistic function as 1 / (1 + exp (-y)).
  On the extended reals a change of float format is the identity; the clamped count is a positive REAL, so multiplying
  by its reciprocal is dividing by it whatever the aggregate is; a sum of three terms may be regrouped; a product into a
  zero accumulator and a dot product are the same sum over the contracted axis; a row block's entry depends only on its
  own row, so the twenty blocks are the rows of one array; and 1 / (1 + exp (-y)) is the logistic function at every y,
  the infinities included. None of this asks an input to be finite, and the precondition is never opened.

  The kernel's frames are the generated ones. Its result is read off the same launch over the same eight segments, the
  last boundary's contents kept at the result buffer and walked back, region by region and stretch by stretch, to a
  closed term of the arguments. The reference's frame and result are its generated run. No rewrite was applied when the
  kernel was idealized, so that claim is trivial.
-/
import proofs.«146768_j44418551775831_2_alg».proof.Defs
import proofs.«146768_j44418551775831_2_alg».proof.Proof.Gen.Kernel
import proofs.«146768_j44418551775831_2_alg».proof.Proof.Gen.Kernel.Frame
import proofs.«146768_j44418551775831_2_alg».proof.Proof.Gen.KernelIdeal
import proofs.«146768_j44418551775831_2_alg».proof.Proof.Gen.KernelIdeal.Frame
import proofs.«146768_j44418551775831_2_alg».proof.Proof.Gen.ReferenceIdeal
import proofs.«146768_j44418551775831_2_alg».proof.Proof.Gen.Pre_finite_inputs
import proofs.«146768_j44418551775831_2_alg».proof.Proof.Gen.ReferenceIdeal.Read
import proofs.«146768_j44418551775831_2_alg».proof.Proof.Value
import proofs.«146768_j44418551775831_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end with the result at ONE function of the arguments:
    the kernel's closed term, which the reference's composed term equals. -/
theorem algebraic : Cert.algebraic_KernelIdeal_ReferenceIdeal := by
  intro m ρ m' ρ' _ hagree
  refine ⟨fun c => Cert.KernelIdeal.Net.KOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v117_eq, e0, e1, e2, e3, e4, e5, e6, e7, e8, e9, e10, e11, e12, e13, e14, e15]
  exact Cert.Bridge.result_eq _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
